-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x16 : Shape := ⟨2, ![64, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S16x10 .f32) (main_arg6 : FVec F S10 .f32) (main_arg7 : FVec F S16x10 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16x10 .f32 := Host.absf main_arg5
  let main_cst_6 : FVec F S_ .f32 := constant S_ .f32 0x7F800000#32
  let main_v20 : FVec F S16x10 .f32 := broadcastInDim S16x10 ![] bcast_S_S16x10 main_cst_6
  let main_v21 : IVec S16x10 1 := cmpf .olt main_v19 main_v20
  let main_c_7 : IVec S_ 1 := constantI S_ 1 1#1
  let main_v22 : IVec S_ 1 := (fun x v => Host.reduce IntOp.andi x v reducesTo_S16x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S16x10 .f32 := Host.absf main_arg7
  let main_cst_10 : FVec F S_ .f32 := constant S_ .f32 0x7F800000#32
  let main_v30 : FVec F S16x10 .f32 := broadcastInDim S16x10 ![] bcast_S_S16x10 main_cst_10
  let main_v31 : IVec S16x10 1 := cmpf .olt main_v29 main_v30
  let main_c_11 : IVec S_ 1 := constantI S_ 1 1#1
  let main_v32 : IVec S_ 1 := (fun x v => Host.reduce IntOp.andi x v reducesTo_S16x10_S_d0_1 h_S_) main_v31 main_c_11
  let main_v33 : IVec S_ 1 := andi main_v28 main_v32
  main_v33

def fn {F : FTy → Type} [FloatOps F] (main_arg0 : FVec F S50000x64 .f32) (main_arg1 : IVec S2x1600000 32) (main_arg2 : FVec F S64x16 .f32) (main_arg3 : FVec F S16 .f32) (main_arg4 : FVec F S64x16 .f32) (main_arg5 : FVec F S16x10 .f32) (main_arg6 : FVec F S10 .f32) (main_arg7 : FVec F S16x10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_arg6 main_arg7 main_v13 main_v16
-- ==== Kernel.lean ====
abbrev S50000x64 : Shape := ⟨2, ![50000, 64]⟩
abbrev S2x1600000 : Shape := ⟨2, ![2, 1600000]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x16 : Shape := ⟨2, ![1, 16]⟩
abbrev S50000x16 : Shape := ⟨2, ![50000, 16]⟩
abbrev S5000x64 : Shape := ⟨2, ![5000, 64]⟩
abbrev S5000x16 : Shape := ⟨2, ![5000, 16]⟩
abbrev S1600000x16 : Shape := ⟨2, ![1600000, 16]⟩
abbrev S1x10 : Shape := ⟨2, ![1, 10]⟩
abbrev S50000x10 : Shape := ⟨2, ![50000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 42
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x16, .f32⟩
  | .hbm, ⟨3, _⟩ => ⟨S16, .f32⟩
  | .hbm, ⟨4, _⟩ => ⟨S64x16, .f32⟩
  | .hbm, ⟨5, _⟩ => ⟨S16x10, .f32⟩
  | .hbm, ⟨6, _⟩ => ⟨S10, .f32⟩
  | .hbm, ⟨7, _⟩ => ⟨S16x10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S50000x64, .f32⟩
  | .hbm, ⟨23, _⟩ => ⟨S1600000x1, .i32⟩
  | .hbm, ⟨24, _⟩ => ⟨S50000x64, .f32⟩
  | .hbm, ⟨25, _⟩ => ⟨S1x16, .f32⟩
  | .hbm, ⟨26, _⟩ => ⟨S50000x16, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x16, .f32⟩
  | .hbm, ⟨36, _⟩ => ⟨S_, .f32⟩
  | .hbm, ⟨37, _⟩ => ⟨S50000x16, .f32⟩
  | .hbm, ⟨38, _⟩ => ⟨S1600000x1, .i32⟩
  | .hbm, ⟨39, _⟩ => ⟨S50000x16, .f32⟩
  | .hbm, ⟨40, _⟩ => ⟨S1x10, .f32⟩
  | .hbm, ⟨41, _⟩ => ⟨S50000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x16, .f32⟩
  | .local _ .vmem, ⟨5, _⟩ => ⟨S1x16, .f32⟩
  | .local _ .vmem, ⟨6, _⟩ => ⟨S64x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x10, .f32⟩
  | .local _ .vmem, ⟨14, _⟩ => ⟨S1x10, .f32⟩
  | .local _ .vmem, ⟨15, _⟩ => ⟨S16x10, .f32⟩
  | .local _ .vmem, ⟨16, _⟩ => ⟨S5000x10, .f32⟩
  | .local _ .vmem, ⟨17, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S10_S1x10 : S10.ShapeCasts S1x10
  shapeCasts_S5000x16_S5000x16 : S5000x16.ShapeCasts S5000x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x16_S5000x16_1_0_0_1_n_n_wf : DotDims.WF S5000x64 S64x16 S5000x16 [1] [0] [0] [1] [] []
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S5000x16_S16x10_S5000x10_1_0_0_1_n_n_wf : DotDims.WF S5000x16 S16x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S50000x16.size a
  hwx0_5 : ∀ i : grid0.Coords, EltTy.bits .f32 = 32 ∨ (Rect.block (s := S50000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x10.size a ≤ S16x10.size a
  hwx1_2 : ∀ i : grid1.Coords, EltTy.bits .f32 = 32 ∨ (Rect.block (s := S16x10) S16x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x10.size a ≤ S16x10.size a
  hwx1_4 : ∀ i : grid1.Coords, EltTy.bits .f32 = 32 ∨ (Rect.block (s := S16x10) S16x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S50000x10.size a
  hwx1_5 : ∀ i : grid1.Coords, EltTy.bits .f32 = 32 ∨ (Rect.block (s := S50000x10) S5000x10.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000x16 : Shape := ⟨2, ![50000, 16]⟩
abbrev S1x16 : Shape := ⟨2, ![1, 16]⟩
abbrev S1600000x16 : Shape := ⟨2, ![1600000, 16]⟩
abbrev S50000x10 : Shape := ⟨2, ![50000, 10]⟩
abbrev S1x10 : Shape := ⟨2, ![1, 10]⟩
abbrev S50000 : Shape := ⟨1, ![50000]⟩
abbrev S50000x1 : Shape := ⟨2, ![50000, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x16, .f32⟩
  | .hbm, ⟨3, _⟩ => ⟨S16, .f32⟩
  | .hbm, ⟨4, _⟩ => ⟨S64x16, .f32⟩
  | .hbm, ⟨5, _⟩ => ⟨S16x10, .f32⟩
  | .hbm, ⟨6, _⟩ => ⟨S10, .f32⟩
  | .hbm, ⟨7, _⟩ => ⟨S16x10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S50000x64, .f32⟩
  | .hbm, ⟨23, _⟩ => ⟨S1600000x1, .i32⟩
  | .hbm, ⟨24, _⟩ => ⟨S50000x64, .f32⟩
  | .hbm, ⟨25, _⟩ => ⟨S50000x16, .f32⟩
  | .hbm, ⟨26, _⟩ => ⟨S1x16, .f32⟩
  | .hbm, ⟨27, _⟩ => ⟨S50000x16, .f32⟩
  | .hbm, ⟨28, _⟩ => ⟨S50000x16, .f32⟩
  | .hbm, ⟨29, _⟩ => ⟨S50000x16, .f32⟩
  | .hbm, ⟨30, _⟩ => ⟨S50000x16, .f32⟩
  | .hbm, ⟨31, _⟩ => ⟨S_, .f32⟩
  | .hbm, ⟨32, _⟩ => ⟨S50000x16, .f32⟩
  | .hbm, ⟨33, _⟩ => ⟨S50000x16, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x16, .f32⟩
  | .hbm, ⟨43, _⟩ => ⟨S_, .f32⟩
  | .hbm, ⟨44, _⟩ => ⟨S50000x16, .f32⟩
  | .hbm, ⟨45, _⟩ => ⟨S1600000x1, .i32⟩
  | .hbm, ⟨46, _⟩ => ⟨S50000x16, .f32⟩
  | .hbm, ⟨47, _⟩ => ⟨S50000x10, .f32⟩
  | .hbm, ⟨48, _⟩ => ⟨S1x10, .f32⟩
  | .hbm, ⟨49, _⟩ => ⟨S50000x10, .f32⟩
  | .hbm, ⟨50, _⟩ => ⟨S50000x10, .f32⟩
  | .hbm, ⟨51, _⟩ => ⟨S50000x10, .f32⟩
  | .hbm, ⟨52, _⟩ => ⟨S50000x10, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x10, .f32⟩
  | .hbm, ⟨60, _⟩ => ⟨S50000x10, .f32⟩
  | .hbm, ⟨61, _⟩ => ⟨S50000x10, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S50000x1, .f32⟩
  | .hbm, ⟨66, _⟩ => ⟨S50000x10, .f32⟩
  | .hbm, ⟨67, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_call1_cst_0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_cst_1 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_v37 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x16_S50000x16_1_0_0_1_n_n_wf : DotDims.WF S50000x64 S64x16 S50000x16 [1] [0] [0] [1] [] []
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S50000x16_S16x10_S50000x10_1_0_0_1_n_n_wf : DotDims.WF S50000x16 S16x10 S50000x10 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x16_S16x10_S50000x10_1_0_0_1_n_n : DotDims S50000x16 S16x10 S50000x10 where
  lhsContracting := [1]
  rhsContracting := [0]
  lhsNonContracting := [0]
  rhsNonContracting := [1]
  lhsBatch := []
  rhsBatch := []
  wf := dot_S50000x16_S16x10_S50000x10_1_0_0_1_n_n_wf

class Facts : Prop extends Facts₀ where

variable [Facts]
-- ==== Proof.KernelRun.lean ====
/-
  The idealized kernel's run with its result named.

  @main is four segments: the host operations that build the first aggregate, the first dense layer's launch, the
  host operations that build the second aggregate from that layer's output, and the second dense layer's launch.
  The buffer contents at each boundary are a fold through those segments, ending at `Gen.W4`.  Every weakly fair
  execution terminates, and in every final state each unscoped buffer of a core holds that core's `Gen.W4`
  contents: in particular the result buffer does, and the eight argument arrays hold what they were launched with.
-/
import proofs.«136224_j43361989820886_1_alg».proof.Proof.Gen.KernelIdeal.Frame

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the result buffer of each core holds
    the last boundary's contents `Gen.W4` at that buffer, and every argument array is as launched. -/
theorem run_main : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibLogSoftmax.lean ====
/-
  The logarithmic softmax of a row, on the extended reals, and the two spellings that compute it, for any sizes.

  For a row z with maximum M (the fold of max from minus infinity), the logarithmic softmax at channel q is
      (z[q] − M) − log Σ_j exp(z[j] − M).
  * A kernel block computes it as: lane maximum from the pattern of −∞, cast to a column, broadcast over the row,
    subtract, exponential, lane sum from the zero pattern, cast to a column, logarithm, broadcast, subtract.
    Read at (p, q) that composite is the logarithmic softmax of row p at q.
  * The host's maximum of a matrix along its last axis, read at row p, is the fold of max from the initial value; one
    more max with the fold's own starting value changes nothing.
-/
import proofs.«136224_j43361989820886_1_alg».proof.Proof.LibLastAxis
import proofs.«136224_j43361989820886_1_alg».proof.Proof.LibKeepdimsColumn

noncomputable section

open scoped BigOperators

namespace Cert.Lib.LogSoftmax

open Idealize.ShloMosaic Idealize.ShloMosaic.ValueIdx Cert.Lib.LastAxis Cert.Lib.KeepdimsColumn

/-- The maximum of a row, folded from the pattern of minus infinity. -/
def rowMax {H : ℕ} (z : Fin H → EReal) : EReal :=
  (Finset.univ : Finset (Fin H)).fold max (Ideal.ofBits .f32 0xFF800000#32) z

/-- The logarithmic softmax of a row at channel q. -/
def logSoftmaxEntry {H : ℕ} (z : Fin H → EReal) (q : Fin H) : EReal :=
  (z q - rowMax z) - Ideal.log (∑ j : Fin H, Ideal.exp (z j - rowMax z))

/-- Taking the maximum with the fold's own starting value once more changes nothing. -/
theorem max_start_rowMax {H : ℕ} (z : Fin H → EReal) :
    max (Ideal.ofBits .f32 0xFF800000#32) (rowMax z) = rowMax z :=
  max_eq_right ((Finset.le_fold_max _).mpr (Or.inl le_rfl))

/-- The row maximum a kernel block puts back on its row: lane maximum, cast to a column, broadcast. -/
theorem kernel_rowMax_apply {a b : ℕ} (Z : FVec Ideal ⟨2, ![a, b]⟩ .f32)
    (hr : (⟨2, ![a, b]⟩ : Shape).Reduces [(1 : Fin 2)] ⟨1, ![a]⟩) (hφ : FKind.Formats .f32)
    (hmax : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    broadcastTo (⟨2, ![a, b]⟩ : Shape) (shapeCast (⟨2, ![a, 1]⟩ : Shape)
        (multiReduction .maximumf [(1 : Fin 2)] ⟨1, ![a]⟩ Z 0xFF800000#32 hr hφ hmax) hc) hb (ix2 p j)
      = rowMax (fun k => Z (ix2 p k)) :=
  (statToMat_apply _ hc hb p j).trans (laneMax_last2 Z _ hr hφ hmax p)

/-- A kernel block's logarithmic-softmax composite, read at (p, q): the logarithmic softmax of row p at q. -/
theorem kernel_apply {a b : ℕ} (Z : FVec Ideal ⟨2, ![a, b]⟩ .f32)
    (hr : (⟨2, ![a, b]⟩ : Shape).Reduces [(1 : Fin 2)] ⟨1, ![a]⟩) (hφ : FKind.Formats .f32)
    (hmax : (0xFF800000#32 : BitVec FTy.f32.bits) = FKind.maximumf.neutral .f32 hφ)
    (hφ' : FKind.Formats .f32) (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf Z (broadcastTo (⟨2, ![a, b]⟩ : Shape) (shapeCast (⟨2, ![a, 1]⟩ : Shape)
          (multiReduction .maximumf [(1 : Fin 2)] ⟨1, ![a]⟩ Z 0xFF800000#32 hr hφ hmax) hc) hb))
      (broadcastTo (⟨2, ![a, b]⟩ : Shape) (log (shapeCast (⟨2, ![a, 1]⟩ : Shape)
          (multiReduction .add [(1 : Fin 2)] ⟨1, ![a]⟩
            (exp (subf Z (broadcastTo (⟨2, ![a, b]⟩ : Shape) (shapeCast (⟨2, ![a, 1]⟩ : Shape)
              (multiReduction .maximumf [(1 : Fin 2)] ⟨1, ![a]⟩ Z 0xFF800000#32 hr hφ hmax) hc) hb)))
            0x00000000#32 hr hφ' hadd) hc)) hb) (ix2 p q)
      = logSoftmaxEntry (fun j => Z (ix2 p j)) q := by
  have hM := kernel_rowMax_apply Z hr hφ hmax hc hb p
  rw [subf_apply, subf_apply, hM q]
  unfold logSoftmaxEntry
  refine congrArg (fun t => (Z (ix2 p q) - rowMax (fun k => Z (ix2 p k))) - t) ?_
  refine (colToMat_apply _ hb p q).trans ?_
  show Ideal.log _ = Ideal.log _
  refine congrArg Ideal.log ?_
  refine (vecToCol_apply _ hc p 0).trans ?_
  refine (laneSum_last2 _ _ hr hφ' hadd p).trans ?_
  refine Finset.sum_congr rfl fun j _ => ?_
  show Ideal.exp _ = Ideal.exp _
  refine congrArg Ideal.exp ?_
  rw [subf_apply, hM j]

/-- The host's maximum of a matrix along its last axis, at row p: the fold of max from the initial value. -/
theorem hostMax_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce (FloatOps.maximumf (F := Ideal) (φ := φ)) x v h' hu (ix1 p)
      = (Finset.univ : Finset (Fin b)).fold max (v ix0) (fun k => x (ix2 p k)) := by
  rw [Host.reduce_eq_fold_single (FloatOps.maximumf (F := Ideal) (φ := φ)) x v h' h hu, eq_ix0 (Shape.Idx.first hu)]
  exact congrArg (fun f => Finset.fold max (v ix0) f (Finset.univ : Finset (Fin b))) (funext fun k => congrArg x (lift_last2 h p k))

end Cert.Lib.LogSoftmax

end
-- ==== Proof.Layers.lean ====
/-
  The mathematics of the two dense layers, entry by entry, on the extended reals.

  A graph-convolution layer takes a matrix A of aggregated neighbour features and the matrix X of the nodes' own
  features, and gives node p, output channel q the value
      (Σ_k A[p,k]·W_rel[k,q] + b[q]) + Σ_k X[p,k]·W_root[k,q].
  The first layer follows it by the positive part, max(·, 0).  The second follows it by a logarithmic softmax along
  the channels: with z the layer's row at node p and M the maximum of the row (a fold of max from minus infinity),
      (z[q] − M) − log Σ_j exp(z[j] − M).
  The floor 0 and the fold's starting value −∞ are kept as the 32-bit patterns both programs spell them with.
-/
import proofs.«136224_j43361989820886_1_alg».proof.Proof.LibLogSoftmax

noncomputable section

open scoped BigOperators

namespace Cert.GraphConv

open Idealize.ShloMosaic Idealize.ShloMosaic.ValueIdx Cert.Lib.LogSoftmax

/-- Entry (p, q) of a graph-convolution layer before its nonlinearity. -/
def affine {N C H : ℕ} (A X : (⟨2, ![N, C]⟩ : Shape).Idx → EReal) (Wr Wo : (⟨2, ![C, H]⟩ : Shape).Idx → EReal)
    (b : Fin H → EReal) (p : Fin N) (q : Fin H) : EReal :=
  (∑ k : Fin C, A (ix2 p k) * Wr (ix2 k q) + b q) + ∑ k : Fin C, X (ix2 p k) * Wo (ix2 k q)

/-- The positive part of a layer's entry; the floor is the pattern of 0. -/
def reluEntry {N C H : ℕ} (A X : (⟨2, ![N, C]⟩ : Shape).Idx → EReal) (Wr Wo : (⟨2, ![C, H]⟩ : Shape).Idx → EReal)
    (b : Fin H → EReal) (p : Fin N) (q : Fin H) : EReal :=
  max (affine A X Wr Wo b p q) (Ideal.ofBits .f32 0x00000000#32)

/-- The first layer as a whole array: the positive part of the graph-convolution layer. -/
def reluLayer {N C H : ℕ} (A X : (⟨2, ![N, C]⟩ : Shape).Idx → EReal) (Wr Wo : (⟨2, ![C, H]⟩ : Shape).Idx → EReal)
    (b : Fin H → EReal) : (⟨2, ![N, H]⟩ : Shape).Idx → EReal :=
  fun i => reluEntry A X Wr Wo b (i 0) (i 1)

/-- The second layer as a whole array: the logarithmic softmax of each row of the graph-convolution layer. -/
def logSoftmaxLayer {N C H : ℕ} (A X : (⟨2, ![N, C]⟩ : Shape).Idx → EReal) (Wr Wo : (⟨2, ![C, H]⟩ : Shape).Idx → EReal)
    (b : Fin H → EReal) : (⟨2, ![N, H]⟩ : Shape).Idx → EReal :=
  fun i => logSoftmaxEntry (fun j => affine A X Wr Wo b (i 0) j) (i 1)

theorem reluLayer_apply {N C H : ℕ} (A X : (⟨2, ![N, C]⟩ : Shape).Idx → EReal) (Wr Wo : (⟨2, ![C, H]⟩ : Shape).Idx → EReal)
    (b : Fin H → EReal) (p : Fin N) (q : Fin H) :
    reluLayer A X Wr Wo b (ix2 p q) = reluEntry A X Wr Wo b p q := rfl

theorem logSoftmaxLayer_apply {N C H : ℕ} (A X : (⟨2, ![N, C]⟩ : Shape).Idx → EReal)
    (Wr Wo : (⟨2, ![C, H]⟩ : Shape).Idx → EReal) (b : Fin H → EReal) (p : Fin N) (q : Fin H) :
    logSoftmaxLayer A X Wr Wo b (ix2 p q) = logSoftmaxEntry (fun j => affine A X Wr Wo b p j) q := rfl

/-- A layer's entry depends only on row p of the two feature matrices, column q of the two weight matrices and the
    bias at q: two readings that agree there give the same entry (a block of rows against the whole matrix). -/
theorem affine_congr {N N' C H : ℕ} (A X : (⟨2, ![N, C]⟩ : Shape).Idx → EReal) (A' X' : (⟨2, ![N', C]⟩ : Shape).Idx → EReal)
    (Wr Wo Wr' Wo' : (⟨2, ![C, H]⟩ : Shape).Idx → EReal) (b b' : Fin H → EReal) (p : Fin N) (p' : Fin N') (q : Fin H)
    (hA : ∀ k, A (ix2 p k) = A' (ix2 p' k)) (hX : ∀ k, X (ix2 p k) = X' (ix2 p' k))
    (hWr : ∀ k, Wr (ix2 k q) = Wr' (ix2 k q)) (hWo : ∀ k, Wo (ix2 k q) = Wo' (ix2 k q)) (hb : b q = b' q) :
    affine A X Wr Wo b p q = affine A' X' Wr' Wo' b' p' q := by
  unfold affine
  exact congrArg₂ (· + ·)
    (congrArg₂ (· + ·) (Finset.sum_congr rfl fun k _ => by rw [hA k, hWr k]) hb)
    (Finset.sum_congr rfl fun k _ => by rw [hX k, hWo k])

theorem reluEntry_congr {N N' C H : ℕ} (A X : (⟨2, ![N, C]⟩ : Shape).Idx → EReal) (A' X' : (⟨2, ![N', C]⟩ : Shape).Idx → EReal)
    (Wr Wo Wr' Wo' : (⟨2, ![C, H]⟩ : Shape).Idx → EReal) (b b' : Fin H → EReal) (p : Fin N) (p' : Fin N') (q : Fin H)
    (hA : ∀ k, A (ix2 p k) = A' (ix2 p' k)) (hX : ∀ k, X (ix2 p k) = X' (ix2 p' k))
    (hWr : ∀ k, Wr (ix2 k q) = Wr' (ix2 k q)) (hWo : ∀ k, Wo (ix2 k q) = Wo' (ix2 k q)) (hb : b q = b' q) :
    reluEntry A X Wr Wo b p q = reluEntry A' X' Wr' Wo' b' p' q := by
  unfold reluEntry
  rw [affine_congr A X A' X' Wr Wo Wr' Wo' b b' p p' q hA hX hWr hWo hb]

theorem logSoftmaxRow_congr {N N' C H : ℕ} (A X : (⟨2, ![N, C]⟩ : Shape).Idx → EReal)
    (A' X' : (⟨2, ![N', C]⟩ : Shape).Idx → EReal) (Wr Wo Wr' Wo' : (⟨2, ![C, H]⟩ : Shape).Idx → EReal) (b b' : Fin H → EReal)
    (p : Fin N) (p' : Fin N') (q : Fin H)
    (hA : ∀ k, A (ix2 p k) = A' (ix2 p' k)) (hX : ∀ k, X (ix2 p k) = X' (ix2 p' k))
    (hWr : ∀ k j, Wr (ix2 k j) = Wr' (ix2 k j)) (hWo : ∀ k j, Wo (ix2 k j) = Wo' (ix2 k j)) (hb : ∀ j, b j = b' j) :
    logSoftmaxEntry (fun j => affine A X Wr Wo b p j) q = logSoftmaxEntry (fun j => affine A' X' Wr' Wo' b' p' j) q :=
  congrArg (fun z => logSoftmaxEntry z q) (funext fun j =>
    affine_congr A X A' X' Wr Wo Wr' Wo' b b' p p' j hA hX (fun k => hWr k j) (fun k => hWo k j) (hb j))

/-- The whole network over two aggregation maps: the second layer of the second aggregate of the first layer's output,
    the first layer being that of the first aggregate of the features. -/
def net {N C H K : ℕ} (agg₁ : ((⟨2, ![N, C]⟩ : Shape).Idx → EReal) → (⟨2, ![N, C]⟩ : Shape).Idx → EReal)
    (agg₂ : ((⟨2, ![N, H]⟩ : Shape).Idx → EReal) → (⟨2, ![N, H]⟩ : Shape).Idx → EReal)
    (x : (⟨2, ![N, C]⟩ : Shape).Idx → EReal) (wr₁ wo₁ : (⟨2, ![C, H]⟩ : Shape).Idx → EReal) (b₁ : Fin H → EReal)
    (wr₂ wo₂ : (⟨2, ![H, K]⟩ : Shape).Idx → EReal) (b₂ : Fin K → EReal) : (⟨2, ![N, K]⟩ : Shape).Idx → EReal :=
  logSoftmaxLayer (agg₂ (reluLayer (agg₁ x) x wr₁ wo₁ b₁)) (reluLayer (agg₁ x) x wr₁ wo₁ b₁) wr₂ wo₂ b₂

end Cert.GraphConv

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelBlocks.lean ====
/-
  What each kernel body stores, read at an entry of its block.

  Both bodies load a block of aggregated rows, the matching block of the nodes' own rows, the two weight matrices
  and the bias row, round the matrix operands to bfloat16 (the identity on the extended reals), multiply into zero
  accumulators, and add: entry (p, q) of the sum is the graph-convolution layer's entry for row p of the block.
  The first body stores the positive part of it; the second the logarithmic softmax of each row.
-/
import proofs.«136224_j43361989820886_1_alg».proof.Proof.Gen.KernelIdeal.Skeleton
import proofs.«136224_j43361989820886_1_alg».proof.Proof.Layers
import proofs.«136224_j43361989820886_1_alg».proof.Proof.LibPlainDot
import proofs.«136224_j43361989820886_1_alg».proof.Proof.LibRank2Layout
import Idealize.ShloMosaic.Lib.Pipeline.Value

noncomputable section

open scoped BigOperators

namespace Cert.KernelIdeal.Blocks

open Cert.KernelIdeal Cert.KernelIdeal.Gen Cert.GraphConv Cert.Lib.LogSoftmax Cert.Bridge
open Idealize.ShloMosaic Idealize.ShloMosaic.ValueIdx

/-- The dense part of a body — two products into zero accumulators and the bias row broadcast over the rows — read at
    (p, q), for any sizes: the graph-convolution layer's entry with the bias read off the row. -/
theorem dense_apply {a k b : ℕ} (d : DotDims ⟨2, ![a, k]⟩ ⟨2, ![k, b]⟩ ⟨2, ![a, b]⟩)
    (hlc : d.lhsContracting = [1]) (hrc : d.rhsContracting = [0]) (hln : d.lhsNonContracting = [0])
    (hrn : d.rhsNonContracting = [1]) (hlb : d.lhsBatch = []) (hrb : d.rhsBatch = [])
    (x0 x1 : FVec Ideal ⟨2, ![a, k]⟩ .f32) (x2 x4 : FVec Ideal ⟨2, ![k, b]⟩ .f32) (x3 : FVec Ideal ⟨2, ![1, b]⟩ .f32)
    (h0 : (⟨2, ![a, k]⟩ : Shape).ShapeCasts ⟨2, ![a, k]⟩) (h3 : (⟨2, ![1, b]⟩ : Shape).ShapeCasts ⟨2, ![1, b]⟩)
    (hb : (⟨2, ![1, b]⟩ : Shape).Broadcasts ⟨2, ![a, b]⟩) (hlt : FTy.bf16.bits < FTy.f32.bits)
    (y1 : FVec Ideal ⟨2, ![a, k]⟩ .f32) (hy1 : y1 = x1) (p : Fin a) (q : Fin b) :
    addf (addf (matmul d none (truncf .bf16 (shapeCast (⟨2, ![a, k]⟩ : Shape) x0 h0) hlt) (truncf .bf16 x2 hlt)
          (constant (⟨2, ![a, b]⟩ : Shape) .f32 0x00000000#32))
        (broadcastTo (⟨2, ![a, b]⟩ : Shape) (shapeCast (⟨2, ![1, b]⟩ : Shape) x3 h3) hb))
      (matmul d none (truncf .bf16 y1 hlt) (truncf .bf16 x4 hlt) (constant (⟨2, ![a, b]⟩ : Shape) .f32 0x00000000#32))
      (ix2 p q)
      = affine x0 x1 x2 x4 (fun j => x3 (ix2 (0 : Fin 1) j)) p q := by
  subst hy1
  rw [addf_apply, addf_apply, shapeCast_self, shapeCast_self]
  unfold affine
  refine congrArg₂ (· + ·) (congrArg₂ (· + ·) ?_ ?_) ?_
  · exact matmul_zero_plain d hlc hrc hln hrn hlb hrb none _ _ p q
  · exact Rank2.bcastRow_apply x3 hb p q
  · exact matmul_zero_plain d hlc hrc hln hrn hlb hrb none _ _ p q

/-- The first body's stored value at (p, q): the positive part of the layer's entry for row p of the block. -/
theorem pay0_apply (x0 x1 : Vec Ideal S5000x64 .f32) (x2 x4 : Vec Ideal S64x16 .f32) (x3 : Vec Ideal S1x16 .f32)
    (p : Fin 5000) (q : Fin 16) :
    k0_pay1 (F := Ideal) x0 x1 x2 x4 x3 (ix2 p q) = reluEntry x0 x1 x2 x4 (fun j => x3 (ix2 (0 : Fin 1) j)) p q := by
  unfold k0_pay1 reluEntry
  refine congrArg₂ max ?_ rfl
  exact dense_apply _ rfl rfl rfl rfl rfl rfl x0 x1 x2 x4 x3 _ _ _ _ x1 rfl p q

/-- The second body's stored value at (p, q): the logarithmic softmax of the layer's row p of the block, at q. -/
theorem pay1_apply (x0 x1 : Vec Ideal S5000x16 .f32) (x2 x4 : Vec Ideal S16x10 .f32) (x3 : Vec Ideal S1x10 .f32)
    (p : Fin 5000) (q : Fin 10) :
    k1_pay1 (F := Ideal) x0 x1 x2 x4 x3 (ix2 p q)
      = logSoftmaxEntry (fun j => affine x0 x1 x2 x4 (fun j => x3 (ix2 (0 : Fin 1) j)) p j) q := by
  unfold k1_pay1
  refine (kernel_apply _ _ _ _ _ _ _ _ p q).trans ?_
  refine congrArg (fun z => logSoftmaxEntry z q) (funext fun j => ?_)
  exact dense_apply _ rfl rfl rfl rfl rfl rfl x0 x1 x2 x4 x3 _ _ _ _ _ (shapeCast_self x1 _) p j

end Cert.KernelIdeal.Blocks

end
-- ==== Proof.KernelArrays.lean ====
/-
  From blocks to arrays: what each launch leaves in its output array.

  A launch runs its body at ten grid points; point t reads rows 5000·t … 5000·t + 4999 of the aggregated features and
  of the nodes' own features, the whole weight matrices and the bias row, and writes rows 5000·t … of the output.
  Entry (p, q) of the block written at t is the layer's entry for row 5000·t + p, so the block is the restriction of ONE
  whole-array function — the layer applied to the arrays as the launch finds them — and the ten blocks cover the
  array.  Stated for arbitrary entry contents V, as the generated frame's per-launch facts are.
-/
import proofs.«136224_j43361989820886_1_alg».proof.Proof.Gen.KernelIdeal.Frame
import proofs.«136224_j43361989820886_1_alg».proof.Proof.KernelBlocks

set_option maxRecDepth 16384

noncomputable section

namespace Cert.KernelIdeal.Arrays

open Cert.KernelIdeal Cert.KernelIdeal.Gen Cert.GraphConv Cert.Lib.LogSoftmax
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first launch: the positive part of the first layer -/

/-- The printed index maps, decided over the ten grid points: the two row windows and the output move with the point,
    the weights and the bias row stay at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t, among the fifty thousand rows. -/
def row0 (t : Fin cfg0.N) (p : Fin 5000) : Fin 50000 :=
  ⟨t.val * 5000 + p.val, by have h := t.isLt; have hN : cfg0.N = 10 := N_0; have hp := p.isLt; omega⟩

theorem row0_val (t : Fin cfg0.N) (p : Fin 5000) : (row0 t p).val = t.val * 5000 + p.val := rfl

/-- Block t of the aggregated rows, at (p, k): row `row t p` of the array. -/
theorem blk0_0 (c : Dev nD) (t : Fin cfg0.N) (p : Fin 5000) (k : Fin 64) :
    iblk0 V c 0 t (ix2 p k) = V c main_v13 (ix2 (row0 t p) k) := by
  have h : ((cfg0.win 0).blk t).view.emb (ix2 p k) = ix2 (row0 t p) k := by
    obtain ⟨e0, e1, -⟩ := idx0 t
    funext a; apply Fin.ext
    match a with
    | ⟨0, _⟩ => show win0_0.index t (0 : Fin 2) * 5000 + 1 * p.val = t.val * 5000 + p.val; rw [e0]; omega
    | ⟨1, _⟩ => show win0_0.index t (1 : Fin 2) * 64 + 1 * k.val = k.val; rw [e1]; omega
  show V c main_v13 (((cfg0.win 0).blk t).view.emb (ix2 p k)) = _
  rw [h]

/-- Block t of the nodes' own rows, at (p, k). -/
theorem blk0_1 (c : Dev nD) (t : Fin cfg0.N) (p : Fin 5000) (k : Fin 64) :
    iblk0 V c 1 t (ix2 p k) = V c main_arg0 (ix2 (row0 t p) k) := by
  have h : ((cfg0.win 1).blk t).view.emb (ix2 p k) = ix2 (row0 t p) k := by
    obtain ⟨-, -, e0, e1, -⟩ := idx0 t
    funext a; apply Fin.ext
    match a with
    | ⟨0, _⟩ => show win0_1.index t (0 : Fin 2) * 5000 + 1 * p.val = t.val * 5000 + p.val; rw [e0]; omega
    | ⟨1, _⟩ => show win0_1.index t (1 : Fin 2) * 64 + 1 * k.val = k.val; rw [e1]; omega
  show V c main_arg0 (((cfg0.win 1).blk t).view.emb (ix2 p k)) = _
  rw [h]

/-- The first weight matrix is one block, the same at every point. -/
theorem blk0_2 (c : Dev nD) (t : Fin cfg0.N) (k : Fin 64) (q : Fin 16) :
    iblk0 V c 2 t (ix2 k q) = V c main_arg2 (ix2 k q) := by
  have h : ((cfg0.win 2).blk t).view.emb (ix2 k q) = ix2 k q := by
    obtain ⟨-, -, -, -, e0, e1, -⟩ := idx0 t
    funext a; apply Fin.ext
    match a with
    | ⟨0, _⟩ => show win0_2.index t (0 : Fin 2) * 64 + 1 * k.val = k.val; rw [e0]; omega
    | ⟨1, _⟩ => show win0_2.index t (1 : Fin 2) * 16 + 1 * q.val = q.val; rw [e1]; omega
  show V c main_arg2 (((cfg0.win 2).blk t).view.emb (ix2 k q)) = _
  rw [h]

/-- The bias row is one block, the same at every point. -/
theorem blk0_3 (c : Dev nD) (t : Fin cfg0.N) (q : Fin 16) :
    iblk0 V c 3 t (ix2 (0 : Fin 1) q) = V c main_v14 (ix2 (0 : Fin 1) q) := by
  have h : ((cfg0.win 3).blk t).view.emb (ix2 (0 : Fin 1) q) = ix2 (0 : Fin 1) q := by
    obtain ⟨-, -, -, -, -, -, e0, e1, -⟩ := idx0 t
    funext a; apply Fin.ext
    match a with
    | ⟨0, _⟩ => show win0_3.index t (0 : Fin 2) * 1 + 1 * 0 = 0; rw [e0]
    | ⟨1, _⟩ => show win0_3.index t (1 : Fin 2) * 16 + 1 * q.val = q.val; rw [e1]; omega
  show V c main_v14 (((cfg0.win 3).blk t).view.emb (ix2 (0 : Fin 1) q)) = _
  rw [h]

/-- The second weight matrix is one block, the same at every point. -/
theorem blk0_4 (c : Dev nD) (t : Fin cfg0.N) (k : Fin 64) (q : Fin 16) :
    iblk0 V c 4 t (ix2 k q) = V c main_arg4 (ix2 k q) := by
  have h : ((cfg0.win 4).blk t).view.emb (ix2 k q) = ix2 k q := by
    obtain ⟨-, -, -, -, -, -, -, -, e0, e1, -⟩ := idx0 t
    funext a; apply Fin.ext
    match a with
    | ⟨0, _⟩ => show win0_4.index t (0 : Fin 2) * 64 + 1 * k.val = k.val; rw [e0]; omega
    | ⟨1, _⟩ => show win0_4.index t (1 : Fin 2) * 16 + 1 * q.val = q.val; rw [e1]; omega
  show V c main_arg4 (((cfg0.win 4).blk t).view.emb (ix2 k q)) = _
  rw [h]

/-- What point t writes back is block t of the layer's output array: entry (p, q) of the block is the layer's entry
    for row `row t p`, which reads that row of the two feature arrays and the whole weights and bias. -/
theorem flushed0 (c : Dev nD) (t : Fin cfg0.N) :
    (dat0 V c).flushed 5 t = ((cfg0.win 5).blk t).view.read (Elt Ideal)
      (reluLayer (N := 50000) (C := 64) (H := 16) (V c main_v13) (V c main_arg0) (V c main_arg2) (V c main_arg4) (fun j => V c main_v14 (ix2 (0 : Fin 1) j))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x16) hz, View.ld_unit_zero (S := S1x16) hz]
  funext j
  obtain ⟨p, q, rfl⟩ : ∃ (p : Fin 5000) (q : Fin 16), j = ix2 p q := ⟨j 0, j 1, eq_ix2 j⟩
  have hemb : ((cfg0.win 5).blk t).view.emb (ix2 p q) = ix2 (row0 t p) q := by
    obtain ⟨-, -, -, -, -, -, -, -, -, -, e0, e1⟩ := idx0 t
    funext a; apply Fin.ext
    match a with
    | ⟨0, _⟩ => show win0_5.index t (0 : Fin 2) * 5000 + 1 * p.val = t.val * 5000 + p.val; rw [e0]; omega
    | ⟨1, _⟩ => show win0_5.index t (1 : Fin 2) * 16 + 1 * q.val = q.val; rw [e1]; omega
  show k0_pay1 (F := Ideal) (iblk0 V c 0 t) (iblk0 V c 1 t) (iblk0 V c 2 t) (iblk0 V c 4 t) (iblk0 V c 3 t) (ix2 p q)
    = (reluLayer (N := 50000) (C := 64) (H := 16) (V c main_v13) (V c main_arg0) (V c main_arg2) (V c main_arg4) (fun j => V c main_v14 (ix2 (0 : Fin 1) j))) (((cfg0.win 5).blk t).view.emb (ix2 p q))
  rw [hemb, reluLayer_apply]
  refine (Blocks.pay0_apply (iblk0 V c 0 t) (iblk0 V c 1 t) (iblk0 V c 2 t) (iblk0 V c 4 t) (iblk0 V c 3 t) p q).trans ?_
  exact reluEntry_congr (iblk0 V c 0 t) (iblk0 V c 1 t) (V c main_v13) (V c main_arg0) (iblk0 V c 2 t) (iblk0 V c 4 t) (V c main_arg2) (V c main_arg4)
      (fun j => iblk0 V c 3 t (ix2 (0 : Fin 1) j)) (fun j => V c main_v14 (ix2 (0 : Fin 1) j)) p (row0 t p) q
      (fun k => blk0_0 V c t p k) (fun k => blk0_1 V c t p k) (fun k => blk0_2 V c t k q) (fun k => blk0_4 V c t k q) (blk0_3 V c t q)

/-- An index of the output array is in point t's block iff each coordinate is in the block's range on its axis. -/
theorem mem_blk0 (t : Fin cfg0.N) (i : S50000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v15).slice (win0_5.rect t)).set ↔ _
  rw [View.set_slice_whole, Rect.mem_set_unit]
  exact Iff.rfl

/-- The ten blocks of five thousand rows cover the array: row r is in block r / 5000. -/
theorem cover0 (i : S50000x16.Idx) :
    ∃ t : Fin cfg0.N, (cfg0.win 5).flush t = true ∧ i ∈ ((cfg0.win 5).blk t).view.set := by
  have h0 : (i 0).val < 50000 := (i 0).isLt
  have h1 : (i 1).val < 16 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_5 t, ?_⟩
  rw [mem_blk0]
  obtain ⟨-, -, -, -, -, -, -, -, -, -, e0, e1⟩ := idx0 t
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 16 ≤ (i 1).val ∧ (i 1).val < win0_5.index t (1 : Fin 2) * 16 + 16
    rw [e1]; omega

/-- The output array after the launch, from ANY entry contents V: the layer of the entry contents of its five operands. -/
theorem array0 (c : Dev nD) : (dat0 V c).arrAt 5 cfg0.N
    = reluLayer (N := 50000) (C := 64) (H := 16) (V c main_v13) (V c main_arg0) (V c main_arg2) (V c main_arg4) (fun j => V c main_v14 (ix2 (0 : Fin 1) j)) :=
  (dat0 V c).arrAt_eq_of_cover 5 _ (fun t _ => flushed0 V c t) (cover0)

/-! ## The second launch: the logarithmic softmax of the second layer's rows -/

/-- The printed index maps, decided over the ten grid points: the two row windows and the output move with the point,
    the weights and the bias row stay at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t, among the fifty thousand rows. -/
def row1 (t : Fin cfg1.N) (p : Fin 5000) : Fin 50000 :=
  ⟨t.val * 5000 + p.val, by have h := t.isLt; have hN : cfg1.N = 10 := N_1; have hp := p.isLt; omega⟩

theorem row1_val (t : Fin cfg1.N) (p : Fin 5000) : (row1 t p).val = t.val * 5000 + p.val := rfl

/-- Block t of the aggregated rows, at (p, k): row `row t p` of the array. -/
theorem blk1_0 (c : Dev nD) (t : Fin cfg1.N) (p : Fin 5000) (k : Fin 16) :
    iblk1 V c 0 t (ix2 p k) = V c main_v25 (ix2 (row1 t p) k) := by
  have h : ((cfg1.win 0).blk t).view.emb (ix2 p k) = ix2 (row1 t p) k := by
    obtain ⟨e0, e1, -⟩ := idx1 t
    funext a; apply Fin.ext
    match a with
    | ⟨0, _⟩ => show win1_0.index t (0 : Fin 2) * 5000 + 1 * p.val = t.val * 5000 + p.val; rw [e0]; omega
    | ⟨1, _⟩ => show win1_0.index t (1 : Fin 2) * 16 + 1 * k.val = k.val; rw [e1]; omega
  show V c main_v25 (((cfg1.win 0).blk t).view.emb (ix2 p k)) = _
  rw [h]

/-- Block t of the nodes' own rows, at (p, k). -/
theorem blk1_1 (c : Dev nD) (t : Fin cfg1.N) (p : Fin 5000) (k : Fin 16) :
    iblk1 V c 1 t (ix2 p k) = V c main_v15 (ix2 (row1 t p) k) := by
  have h : ((cfg1.win 1).blk t).view.emb (ix2 p k) = ix2 (row1 t p) k := by
    obtain ⟨-, -, e0, e1, -⟩ := idx1 t
    funext a; apply Fin.ext
    match a with
    | ⟨0, _⟩ => show win1_1.index t (0 : Fin 2) * 5000 + 1 * p.val = t.val * 5000 + p.val; rw [e0]; omega
    | ⟨1, _⟩ => show win1_1.index t (1 : Fin 2) * 16 + 1 * k.val = k.val; rw [e1]; omega
  show V c main_v15 (((cfg1.win 1).blk t).view.emb (ix2 p k)) = _
  rw [h]

/-- The first weight matrix is one block, the same at every point. -/
theorem blk1_2 (c : Dev nD) (t : Fin cfg1.N) (k : Fin 16) (q : Fin 10) :
    iblk1 V c 2 t (ix2 k q) = V c main_arg5 (ix2 k q) := by
  have h : ((cfg1.win 2).blk t).view.emb (ix2 k q) = ix2 k q := by
    obtain ⟨-, -, -, -, e0, e1, -⟩ := idx1 t
    funext a; apply Fin.ext
    match a with
    | ⟨0, _⟩ => show win1_2.index t (0 : Fin 2) * 16 + 1 * k.val = k.val; rw [e0]; omega
    | ⟨1, _⟩ => show win1_2.index t (1 : Fin 2) * 10 + 1 * q.val = q.val; rw [e1]; omega
  show V c main_arg5 (((cfg1.win 2).blk t).view.emb (ix2 k q)) = _
  rw [h]

/-- The bias row is one block, the same at every point. -/
theorem blk1_3 (c : Dev nD) (t : Fin cfg1.N) (q : Fin 10) :
    iblk1 V c 3 t (ix2 (0 : Fin 1) q) = V c main_v26 (ix2 (0 : Fin 1) q) := by
  have h : ((cfg1.win 3).blk t).view.emb (ix2 (0 : Fin 1) q) = ix2 (0 : Fin 1) q := by
    obtain ⟨-, -, -, -, -, -, e0, e1, -⟩ := idx1 t
    funext a; apply Fin.ext
    match a with
    | ⟨0, _⟩ => show win1_3.index t (0 : Fin 2) * 1 + 1 * 0 = 0; rw [e0]
    | ⟨1, _⟩ => show win1_3.index t (1 : Fin 2) * 10 + 1 * q.val = q.val; rw [e1]; omega
  show V c main_v26 (((cfg1.win 3).blk t).view.emb (ix2 (0 : Fin 1) q)) = _
  rw [h]

/-- The second weight matrix is one block, the same at every point. -/
theorem blk1_4 (c : Dev nD) (t : Fin cfg1.N) (k : Fin 16) (q : Fin 10) :
    iblk1 V c 4 t (ix2 k q) = V c main_arg7 (ix2 k q) := by
  have h : ((cfg1.win 4).blk t).view.emb (ix2 k q) = ix2 k q := by
    obtain ⟨-, -, -, -, -, -, -, -, e0, e1, -⟩ := idx1 t
    funext a; apply Fin.ext
    match a with
    | ⟨0, _⟩ => show win1_4.index t (0 : Fin 2) * 16 + 1 * k.val = k.val; rw [e0]; omega
    | ⟨1, _⟩ => show win1_4.index t (1 : Fin 2) * 10 + 1 * q.val = q.val; rw [e1]; omega
  show V c main_arg7 (((cfg1.win 4).blk t).view.emb (ix2 k q)) = _
  rw [h]

/-- What point t writes back is block t of the layer's output array: entry (p, q) of the block is the layer's entry
    for row `row t p`, which reads that row of the two feature arrays and the whole weights and bias. -/
theorem flushed1 (c : Dev nD) (t : Fin cfg1.N) :
    (dat1 V c).flushed 5 t = ((cfg1.win 5).blk t).view.read (Elt Ideal)
      (logSoftmaxLayer (N := 50000) (C := 16) (H := 10) (V c main_v25) (V c main_v15) (V c main_arg5) (V c main_arg7) (fun j => V c main_v26 (ix2 (0 : Fin 1) j))) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x10) hz, View.ld_unit_zero (S := S1x10) hz]
  funext j
  obtain ⟨p, q, rfl⟩ : ∃ (p : Fin 5000) (q : Fin 10), j = ix2 p q := ⟨j 0, j 1, eq_ix2 j⟩
  have hemb : ((cfg1.win 5).blk t).view.emb (ix2 p q) = ix2 (row1 t p) q := by
    obtain ⟨-, -, -, -, -, -, -, -, -, -, e0, e1⟩ := idx1 t
    funext a; apply Fin.ext
    match a with
    | ⟨0, _⟩ => show win1_5.index t (0 : Fin 2) * 5000 + 1 * p.val = t.val * 5000 + p.val; rw [e0]; omega
    | ⟨1, _⟩ => show win1_5.index t (1 : Fin 2) * 10 + 1 * q.val = q.val; rw [e1]; omega
  show k1_pay1 (F := Ideal) (iblk1 V c 0 t) (iblk1 V c 1 t) (iblk1 V c 2 t) (iblk1 V c 4 t) (iblk1 V c 3 t) (ix2 p q)
    = (logSoftmaxLayer (N := 50000) (C := 16) (H := 10) (V c main_v25) (V c main_v15) (V c main_arg5) (V c main_arg7) (fun j => V c main_v26 (ix2 (0 : Fin 1) j))) (((cfg1.win 5).blk t).view.emb (ix2 p q))
  rw [hemb, logSoftmaxLayer_apply]
  refine (Blocks.pay1_apply (iblk1 V c 0 t) (iblk1 V c 1 t) (iblk1 V c 2 t) (iblk1 V c 4 t) (iblk1 V c 3 t) p q).trans ?_
  exact logSoftmaxRow_congr (iblk1 V c 0 t) (iblk1 V c 1 t) (V c main_v25) (V c main_v15) (iblk1 V c 2 t) (iblk1 V c 4 t) (V c main_arg5) (V c main_arg7)
      (fun j => iblk1 V c 3 t (ix2 (0 : Fin 1) j)) (fun j => V c main_v26 (ix2 (0 : Fin 1) j)) p (row1 t p) q
      (fun k => blk1_0 V c t p k) (fun k => blk1_1 V c t p k) (fun k j => blk1_2 V c t k j) (fun k j => blk1_4 V c t k j) (fun j => blk1_3 V c t j)

/-- An index of the output array is in point t's block iff each coordinate is in the block's range on its axis. -/
theorem mem_blk1 (t : Fin cfg1.N) (i : S50000x10.Idx) :
    i ∈ ((cfg1.win 5).blk t).view.set ↔ ∀ a : Fin 2, win1_5.index t a * S5000x10.size a ≤ (i a).val ∧ (i a).val < win1_5.index t a * S5000x10.size a + S5000x10.size a := by
  show i ∈ ((View.whole main_v27).slice (win1_5.rect t)).set ↔ _
  rw [View.set_slice_whole, Rect.mem_set_unit]
  exact Iff.rfl

/-- The ten blocks of five thousand rows cover the array: row r is in block r / 5000. -/
theorem cover1 (i : S50000x10.Idx) :
    ∃ t : Fin cfg1.N, (cfg1.win 5).flush t = true ∧ i ∈ ((cfg1.win 5).blk t).view.set := by
  have h0 : (i 0).val < 50000 := (i 0).isLt
  have h1 : (i 1).val < 10 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_5 t, ?_⟩
  rw [mem_blk1]
  obtain ⟨-, -, -, -, -, -, -, -, -, -, e0, e1⟩ := idx1 t
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 10 ≤ (i 1).val ∧ (i 1).val < win1_5.index t (1 : Fin 2) * 10 + 10
    rw [e1]; omega

/-- The output array after the launch, from ANY entry contents V: the layer of the entry contents of its five operands. -/
theorem array1 (c : Dev nD) : (dat1 V c).arrAt 5 cfg1.N
    = logSoftmaxLayer (N := 50000) (C := 16) (H := 10) (V c main_v25) (V c main_v15) (V c main_arg5) (V c main_arg7) (fun j => V c main_v26 (ix2 (0 : Fin 1) j)) :=
  (dat1 V c).arrAt_eq_of_cover 5 _ (fun t _ => flushed1 V c t) (cover1)

end Cert.KernelIdeal.Arrays

end
-- ==== Proof.KernelGlue.lean ====
/-
  The idealized kernel's host operations, stretch by stretch, from an arbitrary valuation.

  Before the first launch the host cuts the edge list into source and destination rows, wraps negative source rows,
  gathers the source rows' features and sums them into the destination rows (the first aggregate), and views the
  first bias as a one-row matrix.  Between the launches it does the same with the first layer's output (the second
  aggregate) and views the second bias as a one-row matrix.  Neither stretch writes an argument, the row vectors, or
  the first layer's output.
-/
import proofs.«136224_j43361989820886_1_alg».proof.Proof.Gen.KernelIdeal.Launch
import Idealize.ShloMosaic.Lib.StableHlo.Run
import Idealize.ShloMosaic.PureOps.Ideal

noncomputable section

namespace Cert.KernelIdeal.Glue

open Cert.KernelIdeal Cert.KernelIdeal.Gen Idealize.ShloMosaic Idealize.ShloMosaic.TcCoe Idealize.SL.Sem Idealize.ShloMosaic.StableHlo

/-- The source rows of the edge list: its first row. -/
def srcRows (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The destination rows of the edge list: its second row. -/
def dstRows (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- A negative row number counts from the end: fifty thousand is added to it. -/
def wrapRows (v : (⟨S1600000, .i32⟩ : BufTy).Contents (Elt Ideal)) : (⟨S1600000, .i32⟩ : BufTy).Contents (Elt Ideal) :=
  select (cmpi .slt v (broadcastInDim S1600000 ![] bcast_S_S1600000 (constantI S_ 32 0#32)))
    (addi v (broadcastInDim S1600000 ![] bcast_S_S1600000 (constantI S_ 32 50000#32))) v

/-- The aggregate of 64-channel features: each edge's source row gathered, and summed into its destination row,
    from zero. -/
def agg64 (x : (⟨S50000x64, .f32⟩ : BufTy).Contents (Elt Ideal)) (src dst : (⟨S1600000, .i32⟩ : BufTy).Contents (Elt Ideal)) : (⟨S50000x64, .f32⟩ : BufTy).Contents (Elt Ideal) :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 x
      (broadcastInDim S1600000x1 ![0] bcast_S1600000_S1600000x1_0 (wrapRows src)))

/-- The aggregate of 16-channel features. -/
def agg16 (h : (⟨S50000x16, .f32⟩ : BufTy).Contents (Elt Ideal)) (src dst : (⟨S1600000, .i32⟩ : BufTy).Contents (Elt Ideal)) : (⟨S50000x16, .f32⟩ : BufTy).Contents (Elt Ideal) :=
  Host.scatterAdd (F := Ideal) scatter_S50000x16_S1600000x1_S1600000x16_1_0_0_1
    (broadcastInDim S50000x16 ![] bcast_S_S50000x16 (constant (F := Ideal) S_ .f32 0x00000000#32))
    (broadcastInDim S1600000x1 ![0] bcast_S1600000_S1600000x1_0 dst)
    (Host.gather gather_S50000x16_S1600000x1_S1600000x16_1_0_n_n_0_1_116 h
      (broadcastInDim S1600000x1 ![0] bcast_S1600000_S1600000x1_0 (wrapRows src)))

/-! ## Before the first launch -/

theorem hostA_agg (W : Valuation τ sig (Elt Ideal)) :
    after (hostOps0 (F := Ideal)) W (Proc.devRef .tc main_v13)
      = agg64 (W (Proc.devRef .tc main_arg0)) (srcRows (W (Proc.devRef .tc main_arg1))) (dstRows (W (Proc.devRef .tc main_arg1))) := by
  dsimp only [hostOps0]; after_results; rfl

theorem hostA_src (W : Valuation τ sig (Elt Ideal)) :
    after (hostOps0 (F := Ideal)) W (Proc.devRef .tc main_v1) = srcRows (W (Proc.devRef .tc main_arg1)) := by
  dsimp only [hostOps0]; after_results; rfl

theorem hostA_dst (W : Valuation τ sig (Elt Ideal)) :
    after (hostOps0 (F := Ideal)) W (Proc.devRef .tc main_v3) = dstRows (W (Proc.devRef .tc main_arg1)) := by
  dsimp only [hostOps0]; after_results; rfl

theorem hostA_bias (W : Valuation τ sig (Elt Ideal)) :
    after (hostOps0 (F := Ideal)) W (Proc.devRef .tc main_v14)
      = shapeCast S1x16 (W (Proc.devRef .tc main_arg3)) shapeCasts_S16_S1x16 := by
  dsimp only [hostOps0]; after_results; rfl

theorem hostA_arg0 (W : Valuation τ sig (Elt Ideal)) :
    after (hostOps0 (F := Ideal)) W (Proc.devRef .tc main_arg0) = W (Proc.devRef .tc main_arg0) := by
  dsimp only [hostOps0]; after_results

theorem hostA_arg2 (W : Valuation τ sig (Elt Ideal)) :
    after (hostOps0 (F := Ideal)) W (Proc.devRef .tc main_arg2) = W (Proc.devRef .tc main_arg2) := by
  dsimp only [hostOps0]; after_results

theorem hostA_arg4 (W : Valuation τ sig (Elt Ideal)) :
    after (hostOps0 (F := Ideal)) W (Proc.devRef .tc main_arg4) = W (Proc.devRef .tc main_arg4) := by
  dsimp only [hostOps0]; after_results

theorem hostA_arg5 (W : Valuation τ sig (Elt Ideal)) :
    after (hostOps0 (F := Ideal)) W (Proc.devRef .tc main_arg5) = W (Proc.devRef .tc main_arg5) := by
  dsimp only [hostOps0]; after_results

theorem hostA_arg6 (W : Valuation τ sig (Elt Ideal)) :
    after (hostOps0 (F := Ideal)) W (Proc.devRef .tc main_arg6) = W (Proc.devRef .tc main_arg6) := by
  dsimp only [hostOps0]; after_results

theorem hostA_arg7 (W : Valuation τ sig (Elt Ideal)) :
    after (hostOps0 (F := Ideal)) W (Proc.devRef .tc main_arg7) = W (Proc.devRef .tc main_arg7) := by
  dsimp only [hostOps0]; after_results

/-! ## Between the launches -/

theorem hostC_agg (W : Valuation τ sig (Elt Ideal)) :
    after (hostOps1 (F := Ideal)) W (Proc.devRef .tc main_v25)
      = agg16 (W (Proc.devRef .tc main_v15)) (W (Proc.devRef .tc main_v1)) (W (Proc.devRef .tc main_v3)) := by
  dsimp only [hostOps1]; after_results; rfl

theorem hostC_bias (W : Valuation τ sig (Elt Ideal)) :
    after (hostOps1 (F := Ideal)) W (Proc.devRef .tc main_v26)
      = shapeCast S1x10 (W (Proc.devRef .tc main_arg6)) shapeCasts_S10_S1x10 := by
  dsimp only [hostOps1]; after_results; rfl

theorem hostC_v15 (W : Valuation τ sig (Elt Ideal)) :
    after (hostOps1 (F := Ideal)) W (Proc.devRef .tc main_v15) = W (Proc.devRef .tc main_v15) := by
  dsimp only [hostOps1]; after_results

theorem hostC_arg5 (W : Valuation τ sig (Elt Ideal)) :
    after (hostOps1 (F := Ideal)) W (Proc.devRef .tc main_arg5) = W (Proc.devRef .tc main_arg5) := by
  dsimp only [hostOps1]; after_results

theorem hostC_arg7 (W : Valuation τ sig (Elt Ideal)) :
    after (hostOps1 (F := Ideal)) W (Proc.devRef .tc main_arg7) = W (Proc.devRef .tc main_arg7) := by
  dsimp only [hostOps1]; after_results

end Cert.KernelIdeal.Glue

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.KernelValue.lean ====
/-
  The idealized kernel's result as one function of its arguments.

  Reading the run's last boundary back: the result array is what the second launch leaves, the second layer of the
  arrays it finds; those are the second aggregate of the first launch's output (with the edge list's rows from before
  the first launch), that output itself, and the second layer's weights and bias as launched; the first launch's output
  is the first layer of the first aggregate of the features, the features, and the first layer's weights and bias as
  launched.  A bias viewed as a one-row matrix reads at (0, q) the bias's entry q.
-/
import proofs.«136224_j43361989820886_1_alg».proof.Proof.KernelRun
import proofs.«136224_j43361989820886_1_alg».proof.Proof.KernelArrays
import proofs.«136224_j43361989820886_1_alg».proof.Proof.KernelGlue
import proofs.«136224_j43361989820886_1_alg».proof.Proof.LibHostMatrix

noncomputable section

namespace Cert.KernelIdeal.NetValue

open Cert.KernelIdeal Cert.KernelIdeal.Gen Cert.KernelIdeal.Glue Cert.KernelIdeal.Arrays Cert.GraphConv Cert.Lib.HostMatrix
open Idealize.ShloMosaic Idealize.ShloMosaic.TcCoe Idealize.ShloMosaic.ValueIdx Idealize.SL.Sem Idealize.ShloMosaic.StableHlo

/-- The network on the kernel's own host terms for the two aggregates. -/
def netK (x : (⟨S50000x64, .f32⟩ : BufTy).Contents (Elt Ideal)) (ei : (⟨S2x1600000, .i32⟩ : BufTy).Contents (Elt Ideal)) (w2 : (⟨S64x16, .f32⟩ : BufTy).Contents (Elt Ideal)) (b3 : (⟨S16, .f32⟩ : BufTy).Contents (Elt Ideal))
    (w4 : (⟨S64x16, .f32⟩ : BufTy).Contents (Elt Ideal)) (w5 : (⟨S16x10, .f32⟩ : BufTy).Contents (Elt Ideal)) (b6 : (⟨S10, .f32⟩ : BufTy).Contents (Elt Ideal)) (w7 : (⟨S16x10, .f32⟩ : BufTy).Contents (Elt Ideal)) :
    (⟨S50000x10, .f32⟩ : BufTy).Contents (Elt Ideal) :=
  net (N := 50000) (C := 64) (H := 16) (K := 10) (fun a => agg64 a (srcRows ei) (dstRows ei)) (fun h => agg16 h (srcRows ei) (dstRows ei))
    x w2 w4 (fun j => b3 (ix1 j)) w5 w7 (fun j => b6 (ix1 j))

variable (m : (ℓ : Loc nD τ sig) → Buf (Elt Ideal) ℓ) (ρ : Dev nD → PrngReg)

/-! ## What the first launch finds -/

theorem V1_agg (c : Dev nD) : V1 m ρ c main_v13
    = agg64 (m ((c.tc : Thread nD τ).loc main_arg0)) (srcRows (m ((c.tc : Thread nD τ).loc main_arg1))) (dstRows (m ((c.tc : Thread nD τ).loc main_arg1))) := hostA_agg (W0 m ρ c)
theorem V1_x (c : Dev nD) : V1 m ρ c main_arg0 = (m ((c.tc : Thread nD τ).loc main_arg0)) := hostA_arg0 (W0 m ρ c)
theorem V1_wrel (c : Dev nD) : V1 m ρ c main_arg2 = (m ((c.tc : Thread nD τ).loc main_arg2)) := hostA_arg2 (W0 m ρ c)
theorem V1_wroot (c : Dev nD) : V1 m ρ c main_arg4 = (m ((c.tc : Thread nD τ).loc main_arg4)) := hostA_arg4 (W0 m ρ c)
theorem V1_bias (c : Dev nD) : V1 m ρ c main_v14 = shapeCast S1x16 (m ((c.tc : Thread nD τ).loc main_arg3)) shapeCasts_S16_S1x16 := hostA_bias (W0 m ρ c)

/-- The first layer's output. -/
def hidden (c : Dev nD) : (⟨S50000x16, .f32⟩ : BufTy).Contents (Elt Ideal) :=
  reluLayer (N := 50000) (C := 64) (H := 16) (agg64 (m ((c.tc : Thread nD τ).loc main_arg0)) (srcRows (m ((c.tc : Thread nD τ).loc main_arg1))) (dstRows (m ((c.tc : Thread nD τ).loc main_arg1))))
    (m ((c.tc : Thread nD τ).loc main_arg0)) (m ((c.tc : Thread nD τ).loc main_arg2)) (m ((c.tc : Thread nD τ).loc main_arg4)) (fun j => (m ((c.tc : Thread nD τ).loc main_arg3)) (ix1 j))

/-- After the first launch its output array holds the first layer's output. -/
theorem W2_hidden (c : Dev nD) : W2 m ρ c (Proc.devRef .tc main_v15) = hidden m c := by
  refine (W2_arr m ρ c 5).trans ((array0 (V1 m ρ) c).trans ?_)
  rw [V1_agg m ρ c, V1_x m ρ c, V1_wrel m ρ c, V1_wroot m ρ c, V1_bias m ρ c]
  unfold hidden
  exact congrArg (reluLayer (N := 50000) (C := 64) (H := 16) _ _ _ _) (funext fun j => rowOfVec_apply _ shapeCasts_S16_S1x16 0 j)

/-! ## What the second launch finds -/

theorem W2_src (c : Dev nD) : W2 m ρ c (Proc.devRef .tc main_v1) = srcRows (m ((c.tc : Thread nD τ).loc main_arg1)) :=
  (W2_of_ne m ρ c main_v1 (by decide)).trans (hostA_src (W0 m ρ c))
theorem W2_dst (c : Dev nD) : W2 m ρ c (Proc.devRef .tc main_v3) = dstRows (m ((c.tc : Thread nD τ).loc main_arg1)) :=
  (W2_of_ne m ρ c main_v3 (by decide)).trans (hostA_dst (W0 m ρ c))
theorem W2_arg5 (c : Dev nD) : W2 m ρ c (Proc.devRef .tc main_arg5) = (m ((c.tc : Thread nD τ).loc main_arg5)) :=
  (W2_of_ne m ρ c main_arg5 (by decide)).trans (hostA_arg5 (W0 m ρ c))
theorem W2_arg6 (c : Dev nD) : W2 m ρ c (Proc.devRef .tc main_arg6) = (m ((c.tc : Thread nD τ).loc main_arg6)) :=
  (W2_of_ne m ρ c main_arg6 (by decide)).trans (hostA_arg6 (W0 m ρ c))
theorem W2_arg7 (c : Dev nD) : W2 m ρ c (Proc.devRef .tc main_arg7) = (m ((c.tc : Thread nD τ).loc main_arg7)) :=
  (W2_of_ne m ρ c main_arg7 (by decide)).trans (hostA_arg7 (W0 m ρ c))

theorem V3_agg (c : Dev nD) : V3 m ρ c main_v25
    = agg16 (hidden m c) (srcRows (m ((c.tc : Thread nD τ).loc main_arg1))) (dstRows (m ((c.tc : Thread nD τ).loc main_arg1))) := by
  refine (hostC_agg (W2 m ρ c)).trans ?_
  rw [W2_hidden m ρ c, W2_src m ρ c, W2_dst m ρ c]
theorem V3_hidden (c : Dev nD) : V3 m ρ c main_v15 = hidden m c := (hostC_v15 (W2 m ρ c)).trans (W2_hidden m ρ c)
theorem V3_wrel (c : Dev nD) : V3 m ρ c main_arg5 = (m ((c.tc : Thread nD τ).loc main_arg5)) := (hostC_arg5 (W2 m ρ c)).trans (W2_arg5 m ρ c)
theorem V3_wroot (c : Dev nD) : V3 m ρ c main_arg7 = (m ((c.tc : Thread nD τ).loc main_arg7)) := (hostC_arg7 (W2 m ρ c)).trans (W2_arg7 m ρ c)
theorem V3_bias (c : Dev nD) : V3 m ρ c main_v26 = shapeCast S1x10 (m ((c.tc : Thread nD τ).loc main_arg6)) shapeCasts_S10_S1x10 := by
  refine (hostC_bias (W2 m ρ c)).trans ?_
  rw [W2_arg6 m ρ c]

/-! ## The result -/

/-- After the second launch the result array holds the network of the arguments. -/
theorem W4_result (c : Dev nD) : W4 m ρ c (Proc.devRef .tc main_v27)
    = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((array1 (V3 m ρ) c).trans ?_)
  rw [V3_agg m ρ c, V3_hidden m ρ c, V3_wrel m ρ c, V3_wroot m ρ c, V3_bias m ρ c]
  unfold netK net hidden
  exact congrArg (logSoftmaxLayer (N := 50000) (C := 16) (H := 10) _ _ _ _) (funext fun j => rowOfVec_apply _ shapeCasts_S10_S1x10 0 j)

/-- The idealized kernel's run: it terminates, the result array holds the network of the arguments, and the arguments
    are as launched. -/
theorem run : θ_run defs (onTc (τ := τ) (main (F := Ideal))) ⟨m, fun _ => 0, ρ⟩ (fun r => ∀ c : Dev nD,
      r.2.mem ((c.tc : Thread nD τ).loc main_v27)
        = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_result m ρ c), (h c).2⟩) (RunValue.run_main (F := Ideal) m ρ)

end Cert.KernelIdeal.NetValue

end
-- ==== Proof.RefRun.lean ====
/-
  The reference program's run, read as a fold.

  The reference's @main is a straight line of sixty host operations (the two outlined functions, the positive part
  and the logarithmic softmax, stand at their call sites).  Every weakly fair execution terminates, and each buffer
  ends at the fold of the operations' results over the launch contents.  The line is cut into five stretches — the
  first aggregate; the first dense layer; the second aggregate; the second dense layer; its logarithmic
  softmax — and the fold over the whole line is the stretches' folds composed, so that each stretch can be read
  from an arbitrary valuation on its own.
-/
import proofs.«136224_j43361989820886_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's sixty operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    binary main_v13 main_arg2 main_v14 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    unary main_arg3 main_v15 (broadcastInDim S1x16 ![1] bcast_S16_S1x16_1 : (⟨S16, .f32⟩ : BufTy).Contents (Elt F) → (⟨S1x16, .f32⟩ : BufTy).Contents (Elt F)),
    unary main_v15 main_v16 (broadcastInDim S50000x16 ![0, 1] bcast_S1x16_S50000x16_0_1 : (⟨S1x16, .f32⟩ : BufTy).Contents (Elt F) → (⟨S50000x16, .f32⟩ : BufTy).Contents (Elt F)),
    binary main_v14 main_v16 main_v17 (addf : (⟨S50000x16, .f32⟩ : BufTy).Contents (Elt F) → (⟨S50000x16, .f32⟩ : BufTy).Contents (Elt F) → (⟨S50000x16, .f32⟩ : BufTy).Contents (Elt F)),
    binary main_arg0 main_arg4 main_v18 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    binary main_v17 main_v18 main_v19 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v19) (TRef.of (T := ⟨S50000x16, .f32⟩) main_call0_v0) (TRef.of (T := ⟨S50000x16, .f32⟩) main_v20) maximumf,
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)),
    nullary main_cst_3 (constant S_ .f32 0x00000000#32),
    unary main_cst_3 main_v28 (broadcastInDim S50000x16 ![] bcast_S_S50000x16 : (⟨S_, .f32⟩ : BufTy).Contents (Elt F) → (⟨S50000x16, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S50000x16_S1600000x1_S1600000x16_1_0_0_1 x i u) : (⟨S50000x16, .f32⟩ : BufTy).Contents (Elt F) → (⟨S1600000x1, .i32⟩ : BufTy).Contents (Elt F) → (⟨S1600000x16, .f32⟩ : BufTy).Contents (Elt F) → (⟨S50000x16, .f32⟩ : BufTy).Contents (Elt F)),
    binary main_v30 main_arg5 main_v31 ((fun l r => Host.dotGeneral dot_S50000x16_S16x10_S50000x10_1_0_0_1_n_n none l r) : (⟨S50000x16, .f32⟩ : BufTy).Contents (Elt F) → (⟨S16x10, .f32⟩ : BufTy).Contents (Elt F) → (⟨S50000x10, .f32⟩ : BufTy).Contents (Elt F)),
    unary main_arg6 main_v32 (broadcastInDim S1x10 ![1] bcast_S10_S1x10_1 : (⟨S10, .f32⟩ : BufTy).Contents (Elt F) → (⟨S1x10, .f32⟩ : BufTy).Contents (Elt F)),
    unary main_v32 main_v33 (broadcastInDim S50000x10 ![0, 1] bcast_S1x10_S50000x10_0_1 : (⟨S1x10, .f32⟩ : BufTy).Contents (Elt F) → (⟨S50000x10, .f32⟩ : BufTy).Contents (Elt F)),
    binary main_v31 main_v33 main_v34 (addf : (⟨S50000x10, .f32⟩ : BufTy).Contents (Elt F) → (⟨S50000x10, .f32⟩ : BufTy).Contents (Elt F) → (⟨S50000x10, .f32⟩ : BufTy).Contents (Elt F)),
    binary main_v20 main_arg7 main_v35 ((fun l r => Host.dotGeneral dot_S50000x16_S16x10_S50000x10_1_0_0_1_n_n none l r) : (⟨S50000x16, .f32⟩ : BufTy).Contents (Elt F) → (⟨S16x10, .f32⟩ : BufTy).Contents (Elt F) → (⟨S50000x10, .f32⟩ : BufTy).Contents (Elt F)),
    binary main_v34 main_v35 main_v36 (addf : (⟨S50000x10, .f32⟩ : BufTy).Contents (Elt F) → (⟨S50000x10, .f32⟩ : BufTy).Contents (Elt F) → (⟨S50000x10, .f32⟩ : BufTy).Contents (Elt F)),
    TRef.nullary (TRef.of (T := ⟨S_, .f32⟩) main_call1_cst) (constant S_ .f32 0xFF800000#32),
    TRef.binary (TRef.of (T := ⟨S50000x10, .f32⟩) main_v36) (TRef.of (T := ⟨S_, .f32⟩) main_call1_cst) (TRef.of (T := ⟨S50000, .f32⟩) main_call1_v0) (fun x v => Host.reduce FloatOps.maximumf x v reducesTo_S50000x10_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x10, .f32⟩) main_call1_v4) (broadcastInDim S50000x10 ![0, 1] bcast_S50000x1_S50000x10_0_1),
    TRef.binary (TRef.of (T := ⟨S50000x10, .f32⟩) main_v36) (TRef.of (T := ⟨S50000x10, .f32⟩) main_call1_v4) (TRef.of (T := ⟨S50000x10, .f32⟩) main_call1_v5) subf,
    TRef.unary (TRef.of (T := ⟨S50000x10, .f32⟩) main_call1_v5) (TRef.of (T := ⟨S50000x10, .f32⟩) main_call1_v6) Host.exp,
    TRef.nullary (TRef.of (T := ⟨S_, .f32⟩) main_call1_cst_1) (constant S_ .f32 0x00000000#32),
    TRef.binary (TRef.of (T := ⟨S50000x10, .f32⟩) main_call1_v6) (TRef.of (T := ⟨S_, .f32⟩) main_call1_cst_1) (TRef.of (T := ⟨S50000, .f32⟩) main_call1_v7) (fun x v => Host.reduceAdd x v reducesTo_S50000x10_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x10, .f32⟩) main_call1_v10) (broadcastInDim S50000x10 ![0, 1] bcast_S50000x1_S50000x10_0_1),
    TRef.binary (TRef.of (T := ⟨S50000x10, .f32⟩) main_call1_v5) (TRef.of (T := ⟨S50000x10, .f32⟩) main_call1_v10) (TRef.of (T := ⟨S50000x10, .f32⟩) main_v37) subf ]

/-- The first aggregate: source and destination rows of the edge list, negative source rows wrapped, the source rows' features gathered and summed into their destination rows. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]

/-- The first dense layer and its positive part. -/
abbrev opsB : List (HloOp τ sig (Elt F)) :=
  [ binary main_v13 main_arg2 main_v14 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    unary main_arg3 main_v15 (broadcastInDim S1x16 ![1] bcast_S16_S1x16_1 : (⟨S16, .f32⟩ : BufTy).Contents (Elt F) → (⟨S1x16, .f32⟩ : BufTy).Contents (Elt F)),
    unary main_v15 main_v16 (broadcastInDim S50000x16 ![0, 1] bcast_S1x16_S50000x16_0_1 : (⟨S1x16, .f32⟩ : BufTy).Contents (Elt F) → (⟨S50000x16, .f32⟩ : BufTy).Contents (Elt F)),
    binary main_v14 main_v16 main_v17 (addf : (⟨S50000x16, .f32⟩ : BufTy).Contents (Elt F) → (⟨S50000x16, .f32⟩ : BufTy).Contents (Elt F) → (⟨S50000x16, .f32⟩ : BufTy).Contents (Elt F)),
    binary main_arg0 main_arg4 main_v18 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    binary main_v17 main_v18 main_v19 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v19) (TRef.of (T := ⟨S50000x16, .f32⟩) main_call0_v0) (TRef.of (T := ⟨S50000x16, .f32⟩) main_v20) maximumf ]

/-- The second aggregate, of the first layer's output. -/
abbrev opsC : List (HloOp τ sig (Elt F)) :=
  [ nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)),
    nullary main_cst_3 (constant S_ .f32 0x00000000#32),
    unary main_cst_3 main_v28 (broadcastInDim S50000x16 ![] bcast_S_S50000x16 : (⟨S_, .f32⟩ : BufTy).Contents (Elt F) → (⟨S50000x16, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S50000x16_S1600000x1_S1600000x16_1_0_0_1 x i u) : (⟨S50000x16, .f32⟩ : BufTy).Contents (Elt F) → (⟨S1600000x1, .i32⟩ : BufTy).Contents (Elt F) → (⟨S1600000x16, .f32⟩ : BufTy).Contents (Elt F) → (⟨S50000x16, .f32⟩ : BufTy).Contents (Elt F)) ]

/-- The second dense layer before its nonlinearity. -/
abbrev opsD : List (HloOp τ sig (Elt F)) :=
  [ binary main_v30 main_arg5 main_v31 ((fun l r => Host.dotGeneral dot_S50000x16_S16x10_S50000x10_1_0_0_1_n_n none l r) : (⟨S50000x16, .f32⟩ : BufTy).Contents (Elt F) → (⟨S16x10, .f32⟩ : BufTy).Contents (Elt F) → (⟨S50000x10, .f32⟩ : BufTy).Contents (Elt F)),
    unary main_arg6 main_v32 (broadcastInDim S1x10 ![1] bcast_S10_S1x10_1 : (⟨S10, .f32⟩ : BufTy).Contents (Elt F) → (⟨S1x10, .f32⟩ : BufTy).Contents (Elt F)),
    unary main_v32 main_v33 (broadcastInDim S50000x10 ![0, 1] bcast_S1x10_S50000x10_0_1 : (⟨S1x10, .f32⟩ : BufTy).Contents (Elt F) → (⟨S50000x10, .f32⟩ : BufTy).Contents (Elt F)),
    binary main_v31 main_v33 main_v34 (addf : (⟨S50000x10, .f32⟩ : BufTy).Contents (Elt F) → (⟨S50000x10, .f32⟩ : BufTy).Contents (Elt F) → (⟨S50000x10, .f32⟩ : BufTy).Contents (Elt F)),
    binary main_v20 main_arg7 main_v35 ((fun l r => Host.dotGeneral dot_S50000x16_S16x10_S50000x10_1_0_0_1_n_n none l r) : (⟨S50000x16, .f32⟩ : BufTy).Contents (Elt F) → (⟨S16x10, .f32⟩ : BufTy).Contents (Elt F) → (⟨S50000x10, .f32⟩ : BufTy).Contents (Elt F)),
    binary main_v34 main_v35 main_v36 (addf : (⟨S50000x10, .f32⟩ : BufTy).Contents (Elt F) → (⟨S50000x10, .f32⟩ : BufTy).Contents (Elt F) → (⟨S50000x10, .f32⟩ : BufTy).Contents (Elt F)) ]

/-- The logarithmic softmax of the second layer's rows. -/
abbrev opsE : List (HloOp τ sig (Elt F)) :=
  [ TRef.nullary (TRef.of (T := ⟨S_, .f32⟩) main_call1_cst) (constant S_ .f32 0xFF800000#32),
    TRef.binary (TRef.of (T := ⟨S50000x10, .f32⟩) main_v36) (TRef.of (T := ⟨S_, .f32⟩) main_call1_cst) (TRef.of (T := ⟨S50000, .f32⟩) main_call1_v0) (fun x v => Host.reduce FloatOps.maximumf x v reducesTo_S50000x10_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x10, .f32⟩) main_call1_v4) (broadcastInDim S50000x10 ![0, 1] bcast_S50000x1_S50000x10_0_1),
    TRef.binary (TRef.of (T := ⟨S50000x10, .f32⟩) main_v36) (TRef.of (T := ⟨S50000x10, .f32⟩) main_call1_v4) (TRef.of (T := ⟨S50000x10, .f32⟩) main_call1_v5) subf,
    TRef.unary (TRef.of (T := ⟨S50000x10, .f32⟩) main_call1_v5) (TRef.of (T := ⟨S50000x10, .f32⟩) main_call1_v6) Host.exp,
    TRef.nullary (TRef.of (T := ⟨S_, .f32⟩) main_call1_cst_1) (constant S_ .f32 0x00000000#32),
    TRef.binary (TRef.of (T := ⟨S50000x10, .f32⟩) main_call1_v6) (TRef.of (T := ⟨S_, .f32⟩) main_call1_cst_1) (TRef.of (T := ⟨S50000, .f32⟩) main_call1_v7) (fun x v => Host.reduceAdd x v reducesTo_S50000x10_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x10, .f32⟩) main_call1_v10) (broadcastInDim S50000x10 ![0, 1] bcast_S50000x1_S50000x10_0_1),
    TRef.binary (TRef.of (T := ⟨S50000x10, .f32⟩) main_call1_v5) (TRef.of (T := ⟨S50000x10, .f32⟩) main_call1_v10) (TRef.of (T := ⟨S50000x10, .f32⟩) main_v37) subf ]

/-- The line is its five stretches, one after the other. -/
theorem ops_split : (ops : List (HloOp τ sig (Elt F))) = opsA ++ (opsB ++ (opsC ++ (opsD ++ opsE))) := rfl

/-- The contents after two lines run one after the other: the second line's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The whole line's fold, stretch by stretch. -/
theorem after_ops (V : Valuation τ sig (Elt F)) :
    after (ops (F := F)) V = after opsE (after opsD (after opsC (after opsB (after opsA V)))) := by
  rw [ops_split, after_append, after_append, after_append, after_append]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- On every device, from any memory with zero counters: every weakly fair execution of the reference's @main
    terminates with each buffer at the fold of the operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HostRun

end
-- ==== Proof.RefDefs.lean ====
/-
  The reference's host terms, named.

  The aggregate (gather the edges' source rows, sum them into their destination rows) is kept as the host
  operations that compute it.  A dense layer is two matrix products, the bias broadcast over the rows, and two
  additions; the first layer takes the positive part, the second the logarithmic softmax of each row, in the
  spelling the framework lowers it to: row maximum from minus infinity (and once more against minus infinity),
  subtract, exponential, row sum from zero, logarithm, subtract.
-/
import proofs.«136224_j43361989820886_1_alg».proof.Proof.Gen.ReferenceIdeal
import Idealize.ShloMosaic.PureOps.Ideal

noncomputable section

namespace Cert.ReferenceIdeal.HostValue

open Cert.ReferenceIdeal Cert.ReferenceIdeal.Gen Idealize.ShloMosaic

/-- The source rows of the edge list: its first row. -/
def srcRows (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The destination rows of the edge list: its second row. -/
def dstRows (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- A negative row number counts from the end: fifty thousand is added to it. -/
def wrapRows (v : (⟨S1600000, .i32⟩ : BufTy).Contents (Elt Ideal)) : (⟨S1600000, .i32⟩ : BufTy).Contents (Elt Ideal) :=
  select (cmpi .slt v (broadcastInDim S1600000 ![] bcast_S_S1600000 (constantI S_ 32 0#32)))
    (addi v (broadcastInDim S1600000 ![] bcast_S_S1600000 (constantI S_ 32 50000#32))) v

/-- The aggregate of 64-channel features: each edge's source row gathered, and summed into its destination row,
    from zero. -/
def agg64 (x : (⟨S50000x64, .f32⟩ : BufTy).Contents (Elt Ideal)) (src dst : (⟨S1600000, .i32⟩ : BufTy).Contents (Elt Ideal)) : (⟨S50000x64, .f32⟩ : BufTy).Contents (Elt Ideal) :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 x
      (broadcastInDim S1600000x1 ![0] bcast_S1600000_S1600000x1_0 (wrapRows src)))

/-- The aggregate of 16-channel features. -/
def agg16 (h : (⟨S50000x16, .f32⟩ : BufTy).Contents (Elt Ideal)) (src dst : (⟨S1600000, .i32⟩ : BufTy).Contents (Elt Ideal)) : (⟨S50000x16, .f32⟩ : BufTy).Contents (Elt Ideal) :=
  Host.scatterAdd (F := Ideal) scatter_S50000x16_S1600000x1_S1600000x16_1_0_0_1
    (broadcastInDim S50000x16 ![] bcast_S_S50000x16 (constant (F := Ideal) S_ .f32 0x00000000#32))
    (broadcastInDim S1600000x1 ![0] bcast_S1600000_S1600000x1_0 dst)
    (Host.gather gather_S50000x16_S1600000x1_S1600000x16_1_0_n_n_0_1_116 h
      (broadcastInDim S1600000x1 ![0] bcast_S1600000_S1600000x1_0 (wrapRows src)))

/-- The first dense layer before its nonlinearity. -/
def dense1 (A X : FVec Ideal S50000x64 .f32) (Wr Wo : FVec Ideal S64x16 .f32) (b : FVec Ideal S16 .f32) : FVec Ideal S50000x16 .f32 :=
  addf (addf (Host.dotGeneral dot_S50000x64_S64x16_S50000x16_1_0_0_1_n_n none A Wr)
      (broadcastInDim S50000x16 ![0, 1] bcast_S1x16_S50000x16_0_1 (broadcastInDim S1x16 ![1] bcast_S16_S1x16_1 b)))
    (Host.dotGeneral dot_S50000x64_S64x16_S50000x16_1_0_0_1_n_n none X Wo)

/-- The first layer: the positive part. -/
def layer1 (A X : FVec Ideal S50000x64 .f32) (Wr Wo : FVec Ideal S64x16 .f32) (b : FVec Ideal S16 .f32) : FVec Ideal S50000x16 .f32 :=
  maximumf (dense1 A X Wr Wo b) (broadcastInDim S50000x16 ![] bcast_S_S50000x16 (constant (F := Ideal) S_ .f32 0x00000000#32))

/-- The second dense layer before its nonlinearity. -/
def dense2 (A X : FVec Ideal S50000x16 .f32) (Wr Wo : FVec Ideal S16x10 .f32) (b : FVec Ideal S10 .f32) : FVec Ideal S50000x10 .f32 :=
  addf (addf (Host.dotGeneral dot_S50000x16_S16x10_S50000x10_1_0_0_1_n_n none A Wr)
      (broadcastInDim S50000x10 ![0, 1] bcast_S1x10_S50000x10_0_1 (broadcastInDim S1x10 ![1] bcast_S10_S1x10_1 b)))
    (Host.dotGeneral dot_S50000x16_S16x10_S50000x10_1_0_0_1_n_n none X Wo)

/-- Each row's maximum, put back on the row. -/
def rowMaxHost (Z : FVec Ideal S50000x10 .f32) : FVec Ideal S50000x10 .f32 :=
  broadcastInDim S50000x10 ![0, 1] bcast_S50000x1_S50000x10_0_1 (broadcastInDim S50000x1 ![0] bcast_S50000_S50000x1_0
    (maximumf (broadcastInDim S50000 ![] bcast_S_S50000 (constant (F := Ideal) S_ .f32 0xFF800000#32))
      (Host.reduce (FloatOps.maximumf (F := Ideal) (φ := .f32)) Z (constant (F := Ideal) S_ .f32 0xFF800000#32) reducesTo_S50000x10_S50000_d1 h_S_)))

/-- The logarithmic softmax of each row, as the framework lowers it. -/
def logSoftmaxHost (Z : FVec Ideal S50000x10 .f32) : FVec Ideal S50000x10 .f32 :=
  subf (subf Z (rowMaxHost Z))
    (broadcastInDim S50000x10 ![0, 1] bcast_S50000x1_S50000x10_0_1 (Host.log (broadcastInDim S50000x1 ![0] bcast_S50000_S50000x1_0
      (Host.reduceAdd (Host.exp (subf Z (rowMaxHost Z))) (constant (F := Ideal) S_ .f32 0x00000000#32) reducesTo_S50000x10_S50000_d1 h_S_))))

/-- The second layer. -/
def layer2 (A X : FVec Ideal S50000x16 .f32) (Wr Wo : FVec Ideal S16x10 .f32) (b : FVec Ideal S10 .f32) : FVec Ideal S50000x10 .f32 :=
  logSoftmaxHost (dense2 A X Wr Wo b)

end Cert.ReferenceIdeal.HostValue

end
-- ==== Proof.RefStretch.lean ====
/-
  The reference's five stretches, each read from an arbitrary valuation: the buffer it computes as the named host
  term of the buffers it reads, and the buffers later stretches still need left as they were.  Composed, they give the
  result buffer after the whole line as the second layer of the second aggregate of the first layer of the first
  aggregate of the arguments, and every argument unchanged.
-/
import proofs.«136224_j43361989820886_1_alg».proof.Proof.RefRun
import proofs.«136224_j43361989820886_1_alg».proof.Proof.RefDefs

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo

/-! ## The first aggregate -/

theorem stretchA_agg (W : Valuation τ sig (Elt Ideal)) :
    after (opsA (F := Ideal)) W (Proc.devRef .tc main_v13)
      = agg64 (W (Proc.devRef .tc main_arg0)) (srcRows (W (Proc.devRef .tc main_arg1))) (dstRows (W (Proc.devRef .tc main_arg1))) := by
  dsimp only [opsA]; after_results; rfl

theorem stretchA_src (W : Valuation τ sig (Elt Ideal)) :
    after (opsA (F := Ideal)) W (Proc.devRef .tc main_v1) = srcRows (W (Proc.devRef .tc main_arg1)) := by
  dsimp only [opsA]; after_results; rfl

theorem stretchA_dst (W : Valuation τ sig (Elt Ideal)) :
    after (opsA (F := Ideal)) W (Proc.devRef .tc main_v3) = dstRows (W (Proc.devRef .tc main_arg1)) := by
  dsimp only [opsA]; after_results; rfl

theorem stretchA_arg0 (W : Valuation τ sig (Elt Ideal)) :
    after (opsA (F := Ideal)) W (Proc.devRef .tc main_arg0) = W (Proc.devRef .tc main_arg0) := by
  dsimp only [opsA]; after_results

theorem stretchA_arg2 (W : Valuation τ sig (Elt Ideal)) :
    after (opsA (F := Ideal)) W (Proc.devRef .tc main_arg2) = W (Proc.devRef .tc main_arg2) := by
  dsimp only [opsA]; after_results

theorem stretchA_arg3 (W : Valuation τ sig (Elt Ideal)) :
    after (opsA (F := Ideal)) W (Proc.devRef .tc main_arg3) = W (Proc.devRef .tc main_arg3) := by
  dsimp only [opsA]; after_results

theorem stretchA_arg4 (W : Valuation τ sig (Elt Ideal)) :
    after (opsA (F := Ideal)) W (Proc.devRef .tc main_arg4) = W (Proc.devRef .tc main_arg4) := by
  dsimp only [opsA]; after_results

theorem stretchA_arg5 (W : Valuation τ sig (Elt Ideal)) :
    after (opsA (F := Ideal)) W (Proc.devRef .tc main_arg5) = W (Proc.devRef .tc main_arg5) := by
  dsimp only [opsA]; after_results

theorem stretchA_arg6 (W : Valuation τ sig (Elt Ideal)) :
    after (opsA (F := Ideal)) W (Proc.devRef .tc main_arg6) = W (Proc.devRef .tc main_arg6) := by
  dsimp only [opsA]; after_results

theorem stretchA_arg7 (W : Valuation τ sig (Elt Ideal)) :
    after (opsA (F := Ideal)) W (Proc.devRef .tc main_arg7) = W (Proc.devRef .tc main_arg7) := by
  dsimp only [opsA]; after_results

/-! ## The first layer -/

theorem stretchB_layer (W : Valuation τ sig (Elt Ideal)) :
    after (opsB (F := Ideal)) W (Proc.devRef .tc main_v20)
      = layer1 (W (Proc.devRef .tc main_v13)) (W (Proc.devRef .tc main_arg0)) (W (Proc.devRef .tc main_arg2))
          (W (Proc.devRef .tc main_arg4)) (W (Proc.devRef .tc main_arg3)) := by
  dsimp only [opsB]; after_results; rfl

theorem stretchB_v1 (W : Valuation τ sig (Elt Ideal)) :
    after (opsB (F := Ideal)) W (Proc.devRef .tc main_v1) = W (Proc.devRef .tc main_v1) := by
  dsimp only [opsB]; after_results

theorem stretchB_v3 (W : Valuation τ sig (Elt Ideal)) :
    after (opsB (F := Ideal)) W (Proc.devRef .tc main_v3) = W (Proc.devRef .tc main_v3) := by
  dsimp only [opsB]; after_results

theorem stretchB_arg5 (W : Valuation τ sig (Elt Ideal)) :
    after (opsB (F := Ideal)) W (Proc.devRef .tc main_arg5) = W (Proc.devRef .tc main_arg5) := by
  dsimp only [opsB]; after_results

theorem stretchB_arg6 (W : Valuation τ sig (Elt Ideal)) :
    after (opsB (F := Ideal)) W (Proc.devRef .tc main_arg6) = W (Proc.devRef .tc main_arg6) := by
  dsimp only [opsB]; after_results

theorem stretchB_arg7 (W : Valuation τ sig (Elt Ideal)) :
    after (opsB (F := Ideal)) W (Proc.devRef .tc main_arg7) = W (Proc.devRef .tc main_arg7) := by
  dsimp only [opsB]; after_results

/-! ## The second aggregate -/

theorem stretchC_agg (W : Valuation τ sig (Elt Ideal)) :
    after (opsC (F := Ideal)) W (Proc.devRef .tc main_v30)
      = agg16 (W (Proc.devRef .tc main_v20)) (W (Proc.devRef .tc main_v1)) (W (Proc.devRef .tc main_v3)) := by
  dsimp only [opsC]; after_results; rfl

theorem stretchC_v20 (W : Valuation τ sig (Elt Ideal)) :
    after (opsC (F := Ideal)) W (Proc.devRef .tc main_v20) = W (Proc.devRef .tc main_v20) := by
  dsimp only [opsC]; after_results

theorem stretchC_arg5 (W : Valuation τ sig (Elt Ideal)) :
    after (opsC (F := Ideal)) W (Proc.devRef .tc main_arg5) = W (Proc.devRef .tc main_arg5) := by
  dsimp only [opsC]; after_results

theorem stretchC_arg6 (W : Valuation τ sig (Elt Ideal)) :
    after (opsC (F := Ideal)) W (Proc.devRef .tc main_arg6) = W (Proc.devRef .tc main_arg6) := by
  dsimp only [opsC]; after_results

theorem stretchC_arg7 (W : Valuation τ sig (Elt Ideal)) :
    after (opsC (F := Ideal)) W (Proc.devRef .tc main_arg7) = W (Proc.devRef .tc main_arg7) := by
  dsimp only [opsC]; after_results

/-! ## The second layer -/

theorem stretchD_dense (W : Valuation τ sig (Elt Ideal)) :
    after (opsD (F := Ideal)) W (Proc.devRef .tc main_v36)
      = dense2 (W (Proc.devRef .tc main_v30)) (W (Proc.devRef .tc main_v20)) (W (Proc.devRef .tc main_arg5))
          (W (Proc.devRef .tc main_arg7)) (W (Proc.devRef .tc main_arg6)) := by
  dsimp only [opsD]; after_results; rfl

/-! ## The logarithmic softmax -/

theorem stretchE_logSoftmax (W : Valuation τ sig (Elt Ideal)) :
    after (opsE (F := Ideal)) W (Proc.devRef .tc main_v37) = logSoftmaxHost (W (Proc.devRef .tc main_v36)) := by
  unfold logSoftmaxHost rowMaxHost
  dsimp only [opsE]; after_results_simp
  simp only [TRef.ofBuf, TRef.toBuf, cast_cast, cast_eq]

/-! ## The whole line -/

/-- The result buffer after the whole line, from any valuation. -/
theorem result_eq (W : Valuation τ sig (Elt Ideal)) :
    after (ops (F := Ideal)) W (Proc.devRef .tc main_v37)
      = layer2
          (agg16 (layer1 (agg64 (W (Proc.devRef .tc main_arg0)) (srcRows (W (Proc.devRef .tc main_arg1))) (dstRows (W (Proc.devRef .tc main_arg1))))
              (W (Proc.devRef .tc main_arg0)) (W (Proc.devRef .tc main_arg2)) (W (Proc.devRef .tc main_arg4)) (W (Proc.devRef .tc main_arg3)))
            (srcRows (W (Proc.devRef .tc main_arg1))) (dstRows (W (Proc.devRef .tc main_arg1))))
          (layer1 (agg64 (W (Proc.devRef .tc main_arg0)) (srcRows (W (Proc.devRef .tc main_arg1))) (dstRows (W (Proc.devRef .tc main_arg1))))
              (W (Proc.devRef .tc main_arg0)) (W (Proc.devRef .tc main_arg2)) (W (Proc.devRef .tc main_arg4)) (W (Proc.devRef .tc main_arg3)))
          (W (Proc.devRef .tc main_arg5)) (W (Proc.devRef .tc main_arg7)) (W (Proc.devRef .tc main_arg6)) := by
  unfold layer2
  rw [after_ops, stretchE_logSoftmax, stretchD_dense, stretchC_agg, stretchC_v20, stretchC_arg5, stretchC_arg6, stretchC_arg7,
    stretchB_layer, stretchB_v1, stretchB_v3, stretchB_arg5, stretchB_arg6, stretchB_arg7,
    stretchA_agg, stretchA_src, stretchA_dst, stretchA_arg0, stretchA_arg2, stretchA_arg3, stretchA_arg4,
    stretchA_arg5, stretchA_arg6, stretchA_arg7]

end Cert.ReferenceIdeal.HostValue

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.RefLayers.lean ====
/-
  The reference's two dense layers, entry by entry: each is the layer formula of its operands.

  A host matrix product at (p, q) is the sum over the contraction index; the bias, viewed as a one-row matrix and
  broadcast over the rows, contributes its entry q; so the dense part at (p, q) is the graph-convolution layer's
  entry.  The first layer's maximum with the broadcast zero is the positive part.  For the second, the row maximum
  folds max from minus infinity (one more max against minus infinity changes nothing), the row sum starts from zero,
  and the composite is the logarithmic softmax of the row.
-/
import proofs.«136224_j43361989820886_1_alg».proof.Proof.RefDefs
import proofs.«136224_j43361989820886_1_alg».proof.Proof.Layers
import proofs.«136224_j43361989820886_1_alg».proof.Proof.LibPlainDot
import proofs.«136224_j43361989820886_1_alg».proof.Proof.LibBroadcastInDim2
import proofs.«136224_j43361989820886_1_alg».proof.Proof.LibHostMatrix

noncomputable section

open scoped BigOperators

namespace Cert.ReferenceIdeal.HostValue

open Cert.ReferenceIdeal Cert.ReferenceIdeal.Gen Cert.GraphConv Cert.Lib.LogSoftmax Cert.Bridge Cert.Lib.HostMatrix
open Idealize.ShloMosaic Idealize.ShloMosaic.ValueIdx Idealize.ShloMosaic.BroadcastInDim2

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem dense1_apply (A X : FVec Ideal S50000x64 .f32) (Wr Wo : FVec Ideal S64x16 .f32) (b : FVec Ideal S16 .f32) (p : Fin 50000) (q : Fin 16) :
    dense1 A X Wr Wo b (ix2 p q) = affine A X Wr Wo (fun j => b (ix1 j)) p q := by
  unfold dense1 affine
  rw [addf_apply, addf_apply]
  refine congrArg₂ (· + ·) (congrArg₂ (· + ·) ?_ ?_) ?_
  · exact dotGeneral_plain _ rfl rfl rfl rfl rfl rfl none .single A Wr p q
  · exact (rowToMat_apply _ bcast_S1x16_S50000x16_0_1 p q).trans (vecToRow_apply b bcast_S16_S1x16_1 0 q)
  · exact dotGeneral_plain _ rfl rfl rfl rfl rfl rfl none .single X Wo p q

theorem dense2_apply (A X : FVec Ideal S50000x16 .f32) (Wr Wo : FVec Ideal S16x10 .f32) (b : FVec Ideal S10 .f32) (p : Fin 50000) (q : Fin 10) :
    dense2 A X Wr Wo b (ix2 p q) = affine A X Wr Wo (fun j => b (ix1 j)) p q := by
  unfold dense2 affine
  rw [addf_apply, addf_apply]
  refine congrArg₂ (· + ·) (congrArg₂ (· + ·) ?_ ?_) ?_
  · exact dotGeneral_plain _ rfl rfl rfl rfl rfl rfl none .single A Wr p q
  · exact (rowToMat_apply _ bcast_S1x10_S50000x10_0_1 p q).trans (vecToRow_apply b bcast_S10_S1x10_1 0 q)
  · exact dotGeneral_plain _ rfl rfl rfl rfl rfl rfl none .single X Wo p q

/-- The first layer is the positive part of the graph-convolution layer, as whole arrays. -/
theorem layer1_eq (A X : FVec Ideal S50000x64 .f32) (Wr Wo : FVec Ideal S64x16 .f32) (b : FVec Ideal S16 .f32) :
    layer1 A X Wr Wo b = reluLayer (N := 50000) (C := 64) (H := 16) A X Wr Wo (fun j => b (ix1 j)) := by
  funext i
  obtain ⟨p, q, rfl⟩ : ∃ (p : Fin 50000) (q : Fin 16), i = ix2 p q := ⟨i 0, i 1, eq_ix2 i⟩
  rw [reluLayer_apply]
  unfold layer1 reluEntry
  rw [maximumf_apply, dense1_apply]
  exact congrArg (max _) (splat_apply bcast_S_S50000x16 0x00000000#32 (ix2 p q))

/-- The row maximum the host puts back on the row, at (p, j). -/
theorem rowMaxHost_apply (Z : FVec Ideal S50000x10 .f32) (p : Fin 50000) (j : Fin 10) :
    rowMaxHost Z (ix2 p j) = rowMax (fun k => Z (ix2 p k)) := by
  unfold rowMaxHost
  refine (colToMat_apply _ bcast_S50000x1_S50000x10_0_1 p j).trans ?_
  refine (vecToCol_apply _ bcast_S50000_S50000x1_0 p 0).trans ?_
  rw [maximumf_apply, splat_apply bcast_S_S50000 0xFF800000#32 (ix1 p),
    hostMax_last2 Z _ reducesTo_S50000x10_S50000_d1 (by decide) h_S_ p]
  exact max_start_rowMax (fun k => Z (ix2 p k))

/-- The host's logarithmic softmax, at (p, q): the logarithmic softmax of row p at q. -/
theorem logSoftmaxHost_apply (Z : FVec Ideal S50000x10 .f32) (p : Fin 50000) (q : Fin 10) :
    logSoftmaxHost Z (ix2 p q) = logSoftmaxEntry (fun j => Z (ix2 p j)) q := by
  unfold logSoftmaxHost logSoftmaxEntry
  rw [subf_apply, subf_apply, rowMaxHost_apply]
  refine congrArg (fun t => (Z (ix2 p q) - rowMax (fun k => Z (ix2 p k))) - t) ?_
  refine (colToMat_apply _ bcast_S50000x1_S50000x10_0_1 p q).trans ?_
  rw [hostLog_apply]
  refine congrArg Ideal.log ?_
  refine (vecToCol_apply _ bcast_S50000_S50000x1_0 p 0).trans ?_
  refine (hostSum_last2 _ _ reducesTo_S50000x10_S50000_d1 (by decide) h_S_ p).trans ?_
  show Ideal.ofBits .f32 0x00000000#32 + _ = _
  rw [Ideal.ofBits_zero_f32, zero_add]
  refine Finset.sum_congr rfl fun j _ => ?_
  rw [hostExp_apply, subf_apply, rowMaxHost_apply]

/-- The second layer is the logarithmic softmax of the graph-convolution layer's rows, as whole arrays. -/
theorem layer2_eq (A X : FVec Ideal S50000x16 .f32) (Wr Wo : FVec Ideal S16x10 .f32) (b : FVec Ideal S10 .f32) :
    layer2 A X Wr Wo b = logSoftmaxLayer (N := 50000) (C := 16) (H := 10) A X Wr Wo (fun j => b (ix1 j)) := by
  funext i
  obtain ⟨p, q, rfl⟩ : ∃ (p : Fin 50000) (q : Fin 10), i = ix2 p q := ⟨i 0, i 1, eq_ix2 i⟩
  rw [logSoftmaxLayer_apply]
  unfold layer2
  rw [logSoftmaxHost_apply]
  exact congrArg (fun z => logSoftmaxEntry z q) (funext fun j => dense2_apply A X Wr Wo b p j)

end Cert.ReferenceIdeal.HostValue

end
-- ==== Proof.RefValue.lean ====
/-
  The reference's result as one function of its arguments, and its run.

  The result buffer after the whole line is the second host layer of the second aggregate of the first host layer of the
  first aggregate; each host layer is the layer formula of its operands; so the result is the network of the arguments.
  No operation of the line writes an argument.
-/
import proofs.«136224_j43361989820886_1_alg».proof.Proof.RefStretch
import proofs.«136224_j43361989820886_1_alg».proof.Proof.RefLayers

noncomputable section

namespace Cert.ReferenceIdeal.HostValue

open Cert.ReferenceIdeal Cert.ReferenceIdeal.Gen Cert.ReferenceIdeal.HostRun Cert.GraphConv
open Idealize.ShloMosaic Idealize.ShloMosaic.TcCoe Idealize.ShloMosaic.ValueIdx Idealize.SL.Sem Idealize.ShloMosaic.StableHlo

/-- The network on the reference's own host terms for the two aggregates. -/
def netR (x : (⟨S50000x64, .f32⟩ : BufTy).Contents (Elt Ideal)) (ei : (⟨S2x1600000, .i32⟩ : BufTy).Contents (Elt Ideal)) (w2 : (⟨S64x16, .f32⟩ : BufTy).Contents (Elt Ideal)) (b3 : (⟨S16, .f32⟩ : BufTy).Contents (Elt Ideal))
    (w4 : (⟨S64x16, .f32⟩ : BufTy).Contents (Elt Ideal)) (w5 : (⟨S16x10, .f32⟩ : BufTy).Contents (Elt Ideal)) (b6 : (⟨S10, .f32⟩ : BufTy).Contents (Elt Ideal)) (w7 : (⟨S16x10, .f32⟩ : BufTy).Contents (Elt Ideal)) :
    (⟨S50000x10, .f32⟩ : BufTy).Contents (Elt Ideal) :=
  net (N := 50000) (C := 64) (H := 16) (K := 10) (fun a => agg64 a (srcRows ei) (dstRows ei)) (fun h => agg16 h (srcRows ei) (dstRows ei))
    x w2 w4 (fun j => b3 (ix1 j)) w5 w7 (fun j => b6 (ix1 j))

/-- The result buffer after the whole line, from any valuation: the network of the arguments' contents. -/
theorem result_net (W : Valuation τ sig (Elt Ideal)) :
    after (ops (F := Ideal)) W (Proc.devRef .tc main_v37)
      = netR (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [result_eq, layer2_eq, layer1_eq]
  rfl

theorem ops_arg0 (W : Valuation τ sig (Elt Ideal)) :
    after (ops (F := Ideal)) W (Proc.devRef .tc main_arg0) = W (Proc.devRef .tc main_arg0) := by
  dsimp only [ops]; after_results_simp

theorem ops_arg1 (W : Valuation τ sig (Elt Ideal)) :
    after (ops (F := Ideal)) W (Proc.devRef .tc main_arg1) = W (Proc.devRef .tc main_arg1) := by
  dsimp only [ops]; after_results_simp

theorem ops_arg2 (W : Valuation τ sig (Elt Ideal)) :
    after (ops (F := Ideal)) W (Proc.devRef .tc main_arg2) = W (Proc.devRef .tc main_arg2) := by
  dsimp only [ops]; after_results_simp

theorem ops_arg3 (W : Valuation τ sig (Elt Ideal)) :
    after (ops (F := Ideal)) W (Proc.devRef .tc main_arg3) = W (Proc.devRef .tc main_arg3) := by
  dsimp only [ops]; after_results_simp

theorem ops_arg4 (W : Valuation τ sig (Elt Ideal)) :
    after (ops (F := Ideal)) W (Proc.devRef .tc main_arg4) = W (Proc.devRef .tc main_arg4) := by
  dsimp only [ops]; after_results_simp

theorem ops_arg5 (W : Valuation τ sig (Elt Ideal)) :
    after (ops (F := Ideal)) W (Proc.devRef .tc main_arg5) = W (Proc.devRef .tc main_arg5) := by
  dsimp only [ops]; after_results_simp

theorem ops_arg6 (W : Valuation τ sig (Elt Ideal)) :
    after (ops (F := Ideal)) W (Proc.devRef .tc main_arg6) = W (Proc.devRef .tc main_arg6) := by
  dsimp only [ops]; after_results_simp

theorem ops_arg7 (W : Valuation τ sig (Elt Ideal)) :
    after (ops (F := Ideal)) W (Proc.devRef .tc main_arg7) = W (Proc.devRef .tc main_arg7) := by
  dsimp only [ops]; after_results_simp

/-- The reference's run: it terminates, the result buffer holds the network of the arguments, and the arguments are as
    launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37)
        = netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v37).trans (result_net (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c))⟩)
    (run_fold (F := Ideal) m ρ)

end Cert.ReferenceIdeal.HostValue

end
-- ==== Proof.lean ====
/-
  The certificate's five claims.

  Both programs compute, on the extended reals, the same two-layer graph convolution: aggregate each node's
  neighbours' features (gather the edges' source rows, sum them into the destination rows), apply
  A·W_rel + b + X·W_root, take the positive part; aggregate again, apply the second such layer, and take the
  logarithmic softmax of each row.  The kernel does the aggregation on the host and each dense layer in a launch over
  ten blocks of five thousand rows; the reference does everything on the host.  Rounding the matrix operands to
  bfloat16 is the identity on the extended reals, a matrix product is the same finite sum on both sides, and the two
  spellings of the logarithmic softmax differ by one maximum against minus infinity, so the two results are one
  function of the arguments, entry by entry; no finiteness of the inputs is used.

  The word-level kernel's and the idealized kernel's frames are the generated ones; the reference's frame is its run
  with the result dropped; the idealization rewrote nothing.
-/
import proofs.«136224_j43361989820886_1_alg».proof.Defs
import proofs.«136224_j43361989820886_1_alg».proof.Proof.Gen.Kernel
import proofs.«136224_j43361989820886_1_alg».proof.Proof.Gen.Kernel.Frame
import proofs.«136224_j43361989820886_1_alg».proof.Proof.Gen.KernelIdeal
import proofs.«136224_j43361989820886_1_alg».proof.Proof.Gen.KernelIdeal.Frame
import proofs.«136224_j43361989820886_1_alg».proof.Proof.Gen.ReferenceIdeal
import proofs.«136224_j43361989820886_1_alg».proof.Proof.Gen.Pre_finite_inputs
import proofs.«136224_j43361989820886_1_alg».proof.Proof.KernelValue
import proofs.«136224_j43361989820886_1_alg».proof.Proof.RefValue
import Idealize.ShloMosaic.Adequacy
import Idealize.ShloMosaic.Init

noncomputable section

namespace Cert.Proof

open Idealize.ShloMosaic Idealize.SL.Sem

/-! The two programs spell the aggregation with the same host operations, each over its own copy of the shapes and of the
    gather and scatter dimension records: the copies are equal by unfolding. -/

theorem src_eq (ei : (⟨Cert.KernelIdeal.S2x1600000, .i32⟩ : BufTy).Contents (Elt Ideal)) :
    Cert.ReferenceIdeal.HostValue.srcRows ei = Cert.KernelIdeal.Glue.srcRows ei := rfl
theorem dst_eq (ei : (⟨Cert.KernelIdeal.S2x1600000, .i32⟩ : BufTy).Contents (Elt Ideal)) :
    Cert.ReferenceIdeal.HostValue.dstRows ei = Cert.KernelIdeal.Glue.dstRows ei := rfl
theorem agg64_eq (x : (⟨Cert.KernelIdeal.S50000x64, .f32⟩ : BufTy).Contents (Elt Ideal)) (s d : (⟨Cert.KernelIdeal.S1600000, .i32⟩ : BufTy).Contents (Elt Ideal)) :
    Cert.ReferenceIdeal.HostValue.agg64 x s d = Cert.KernelIdeal.Glue.agg64 x s d := rfl
theorem agg16_eq (h : (⟨Cert.KernelIdeal.S50000x16, .f32⟩ : BufTy).Contents (Elt Ideal)) (s d : (⟨Cert.KernelIdeal.S1600000, .i32⟩ : BufTy).Contents (Elt Ideal)) :
    Cert.ReferenceIdeal.HostValue.agg16 h s d = Cert.KernelIdeal.Glue.agg16 h s d := rfl

/-- So the networks built on the two spellings agree. -/
theorem net_eq (x : (⟨Cert.KernelIdeal.S50000x64, .f32⟩ : BufTy).Contents (Elt Ideal)) (ei : (⟨Cert.KernelIdeal.S2x1600000, .i32⟩ : BufTy).Contents (Elt Ideal))
    (w2 : (⟨Cert.KernelIdeal.S64x16, .f32⟩ : BufTy).Contents (Elt Ideal)) (b3 : (⟨Cert.KernelIdeal.S16, .f32⟩ : BufTy).Contents (Elt Ideal)) (w4 : (⟨Cert.KernelIdeal.S64x16, .f32⟩ : BufTy).Contents (Elt Ideal))
    (w5 : (⟨Cert.KernelIdeal.S16x10, .f32⟩ : BufTy).Contents (Elt Ideal)) (b6 : (⟨Cert.KernelIdeal.S10, .f32⟩ : BufTy).Contents (Elt Ideal)) (w7 : (⟨Cert.KernelIdeal.S16x10, .f32⟩ : BufTy).Contents (Elt Ideal)) :
    Cert.ReferenceIdeal.HostValue.netR x ei w2 b3 w4 w5 b6 w7 = Cert.KernelIdeal.NetValue.netK x ei w2 b3 w4 w5 b6 w7 := by
  unfold Cert.ReferenceIdeal.HostValue.netR Cert.KernelIdeal.NetValue.netK
  rw [src_eq, dst_eq]
  have h1 : (fun a => Cert.ReferenceIdeal.HostValue.agg64 a (Cert.KernelIdeal.Glue.srcRows ei) (Cert.KernelIdeal.Glue.dstRows ei))
      = fun a => Cert.KernelIdeal.Glue.agg64 a (Cert.KernelIdeal.Glue.srcRows ei) (Cert.KernelIdeal.Glue.dstRows ei) :=
    funext fun a => agg64_eq a _ _
  have h2 : (fun h => Cert.ReferenceIdeal.HostValue.agg16 h (Cert.KernelIdeal.Glue.srcRows ei) (Cert.KernelIdeal.Glue.dstRows ei))
      = fun h => Cert.KernelIdeal.Glue.agg16 h (Cert.KernelIdeal.Glue.srcRows ei) (Cert.KernelIdeal.Glue.dstRows ei) :=
    funext fun h => agg16_eq h _ _
  rw [h1, h2]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostValue.run m ρ)

theorem preserves : Cert.preserves_Kernel_KernelIdeal := trivial

/-- From memories agreeing on the arguments both idealized programs end with the network of the arguments in their
    result buffers. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.HostValue.run m' ρ')
  obtain ⟨e0, e1, e2, e3, e4, e5, e6, e7⟩ := hagree c
  rw [e0, e1, e2, e3, e4, e5, e6, e7]
  exact net_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
